-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x2048 : Shape := ⟨4, ![4, 64, 64, 2048]⟩
abbrev S_ : Shape := ⟨0, ![]⟩

class Facts : Prop where
  bcast_S_S4x64x64x2048 : S_.BroadcastsInDim S4x64x64x2048 (![] : Fin 0 → Fin S4x64x64x2048.rank)
  reducesTo_S4x64x64x2048_S_d0_1_2_3 : S4x64x64x2048.ReducesTo [0, 1, 2, 3] S_
  h_S_ : 0 < S_.numel

variable [Facts]

def fn {F : FTy → Type} [FloatOps F] (main_arg0 : FVec F S4x64x64x2048 .f32) (main_arg1 : FVec F S4x64x64x2048 .f32) (main_arg2 : FVec F S4x64x64x2048 .f32) : IVec S_ 1 :=
  let main_v0 : FVec F S4x64x64x2048 .f32 := Host.absf main_arg0
  let main_cst : FVec F S_ .f32 := constant S_ .f32 0x7F800000#32
  let main_v1 : FVec F S4x64x64x2048 .f32 := broadcastInDim S4x64x64x2048 ![] bcast_S_S4x64x64x2048 main_cst
  let main_v2 : IVec S4x64x64x2048 1 := cmpf .olt main_v0 main_v1
  let main_c : IVec S_ 1 := constantI S_ 1 1#1
  let main_v3 : IVec S_ 1 := (fun x v => Host.reduce IntOp.andi x v reducesTo_S4x64x64x2048_S_d0_1_2_3 h_S_) main_v2 main_c
  let main_v4 : FVec F S4x64x64x2048 .f32 := Host.absf main_arg1
  let main_cst_0 : FVec F S_ .f32 := constant S_ .f32 0x7F800000#32
  let main_v5 : FVec F S4x64x64x2048 .f32 := broadcastInDim S4x64x64x2048 ![] bcast_S_S4x64x64x2048 main_cst_0
  let main_v6 : IVec S4x64x64x2048 1 := cmpf .olt main_v4 main_v5
  let main_c_1 : IVec S_ 1 := constantI S_ 1 1#1
  let main_v7 : IVec S_ 1 := (fun x v => Host.reduce IntOp.andi x v reducesTo_S4x64x64x2048_S_d0_1_2_3 h_S_) main_v6 main_c_1
  let main_v8 : IVec S_ 1 := andi main_v3 main_v7
  let main_v9 : FVec F S4x64x64x2048 .f32 := Host.absf main_arg2
  let main_cst_2 : FVec F S_ .f32 := constant S_ .f32 0x7F800000#32
  let main_v10 : FVec F S4x64x64x2048 .f32 := broadcastInDim S4x64x64x2048 ![] bcast_S_S4x64x64x2048 main_cst_2
  let main_v11 : IVec S4x64x64x2048 1 := cmpf .olt main_v9 main_v10
  let main_c_3 : IVec S_ 1 := constantI S_ 1 1#1
  let main_v12 : IVec S_ 1 := (fun x v => Host.reduce IntOp.andi x v reducesTo_S4x64x64x2048_S_d0_1_2_3 h_S_) main_v11 main_c_3
  let main_v13 : IVec S_ 1 := andi main_v8 main_v12
  main_v13
-- ==== Kernel.lean ====
abbrev S4x64x64x2048 : Shape := ⟨4, ![4, 64, 64, 2048]⟩
abbrev S1x64x64x128 : Shape := ⟨4, ![1, 64, 64, 128]⟩
abbrev S1x64x64x64 : Shape := ⟨4, ![1, 64, 64, 64]⟩
abbrev S64x64x64 : Shape := ⟨3, ![64, 64, 64]⟩
abbrev S64x64x16 : Shape := ⟨3, ![64, 64, 16]⟩
abbrev S64x16x64 : Shape := ⟨3, ![64, 16, 64]⟩
abbrev S64x16x192 : Shape := ⟨3, ![64, 16, 192]⟩
abbrev S64x16x256 : Shape := ⟨3, ![64, 16, 256]⟩
abbrev S64x192x16 : Shape := ⟨3, ![64, 192, 16]⟩
abbrev S64x256x16 : Shape := ⟨3, ![64, 256, 16]⟩
abbrev S64x16x128 : Shape := ⟨3, ![64, 16, 128]⟩
abbrev S64x128x16 : Shape := ⟨3, ![64, 128, 16]⟩
abbrev S64x64x256 : Shape := ⟨3, ![64, 64, 256]⟩
abbrev S64x256x64 : Shape := ⟨3, ![64, 256, 64]⟩
abbrev S64x64x4x64 : Shape := ⟨4, ![64, 64, 4, 64]⟩
abbrev S64x64x4 : Shape := ⟨3, ![64, 64, 4]⟩
abbrev S64x64x4x1 : Shape := ⟨4, ![64, 64, 4, 1]⟩
abbrev S4x4096x2048 : Shape := ⟨3, ![4, 4096, 2048]⟩
abbrev S4x1x64x64x2048 : Shape := ⟨5, ![4, 1, 64, 64, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x64x64x2048, .f32⟩
  | .hbm, ⟨1, _⟩ => ⟨S4x64x64x2048, .f32⟩
  | .hbm, ⟨2, _⟩ => ⟨S4x64x64x2048, .f32⟩
  | .hbm, ⟨3, _⟩ => ⟨S4x64x64x2048, .f32⟩
  | .hbm, ⟨4, _⟩ => ⟨S4x64x64x2048, .f32⟩
  | .hbm, ⟨5, _⟩ => ⟨S4x4096x2048, .f32⟩
  | .hbm, ⟨6, _⟩ => ⟨S4x1x64x64x2048, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x64x128, .f32⟩
  | .local _ .vmem, ⟨3, _⟩ => ⟨S1x64x64x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | _, _ => ⟨S4x64x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x64x64x128_S1x64x64x64_0_0_0_0 : ∀ a, (![0, 0, 0, 0] : Fin 4 → Nat) a + S1x64x64x64.size a ≤ S1x64x64x128.size a
  h_S1x64x64x64 : 0 < S1x64x64x64.numel
  shapeCasts_S1x64x64x64_S64x64x64 : S1x64x64x64.ShapeCasts S64x64x64
  transposes_S64x64x64_p2_0_1_S64x64x64 : S64x64x64.Transposes [2, 0, 1] S64x64x64
  slices_S64x64x64_o0_0_0_S64x64x16 : S64x64x64.Slices ![0, 0, 0] S64x64x16
  transposes_S64x64x16_p0_2_1_S64x16x64 : S64x64x16.Transposes [0, 2, 1] S64x16x64
  concatenates_S64x16x64_S64x16x192_S64x16x256_d2 : Shape.Concatenates [S64x16x64, S64x16x192] S64x16x256 2
  concatenates_S64x64x16_S64x192x16_S64x256x16_d1 : Shape.Concatenates [S64x64x16, S64x192x16] S64x256x16 1
  slices_S64x64x64_o0_0_16_S64x64x16 : S64x64x64.Slices ![0, 0, 16] S64x64x16
  concatenates_S64x16x64_S64x16x64_S64x16x128_S64x16x256_d2 : Shape.Concatenates [S64x16x64, S64x16x64, S64x16x128] S64x16x256 2
  concatenates_S64x64x16_S64x64x16_S64x128x16_S64x256x16_d1 : Shape.Concatenates [S64x64x16, S64x64x16, S64x128x16] S64x256x16 1
  slices_S64x64x64_o0_0_32_S64x64x16 : S64x64x64.Slices ![0, 0, 32] S64x64x16
  concatenates_S64x16x128_S64x16x64_S64x16x64_S64x16x256_d2 : Shape.Concatenates [S64x16x128, S64x16x64, S64x16x64] S64x16x256 2
  concatenates_S64x128x16_S64x64x16_S64x64x16_S64x256x16_d1 : Shape.Concatenates [S64x128x16, S64x64x16, S64x64x16] S64x256x16 1
  slices_S64x64x64_o0_0_48_S64x64x16 : S64x64x64.Slices ![0, 0, 48] S64x64x16
  concatenates_S64x16x192_S64x16x64_S64x16x256_d2 : Shape.Concatenates [S64x16x192, S64x16x64] S64x16x256 2
  concatenates_S64x192x16_S64x64x16_S64x256x16_d1 : Shape.Concatenates [S64x192x16, S64x64x16] S64x256x16 1
  concatenates_S64x16x256_S64x16x256_S64x16x256_S64x16x256_S64x64x256_d1 : Shape.Concatenates [S64x16x256, S64x16x256, S64x16x256, S64x16x256] S64x64x256 1
  concatenates_S64x256x16_S64x256x16_S64x256x16_S64x256x16_S64x256x64_d2 : Shape.Concatenates [S64x256x16, S64x256x16, S64x256x16, S64x256x16] S64x256x64 2
  shapeCasts_S64x64x256_S64x64x4x64 : S64x64x256.ShapeCasts S64x64x4x64
  reduces_S64x64x4x64_S64x64x4 : S64x64x4x64.Reduces [3] S64x64x4
  shapeCasts_S64x64x4_S64x64x4x1 : S64x64x4.ShapeCasts S64x64x4x1
  broadcasts_S64x64x4x1_S64x64x4x64 : S64x64x4x1.Broadcasts S64x64x4x64
  shapeCasts_S64x64x4x64_S64x64x256 : S64x64x4x64.ShapeCasts S64x64x256
  reduces_S64x64x4x64_S64x64x64 : S64x64x4x64.Reduces [2] S64x64x64
  transposes_S64x64x64_p1_2_0_S64x64x64 : S64x64x64.Transposes [1, 2, 0] S64x64x64
  shapeCasts_S64x64x64_S1x64x64x64 : S64x64x64.ShapeCasts S1x64x64x64
  inb_S1x64x64x128_S1x64x64x64_0_0_0_64 : ∀ a, (![0, 0, 0, 64] : Fin 4 → Nat) a + S1x64x64x64.size a ≤ S1x64x64x128.size a
  shapeCasts_S4x64x64x2048_S4x4096x2048 : S4x64x64x2048.ShapeCasts S4x4096x2048
  shapeCasts_S4x64x64x2048_S4x1x64x64x2048 : S4x64x64x2048.ShapeCasts S4x1x64x64x2048
  dot_S64x64x64_S64x64x256_S64x64x256_2_1_1_2_0_0_wf : DotDims.WF S64x64x64 S64x64x256 S64x64x256 [2] [1] [1] [2] [0] [0]
  dot_S64x64x256_S64x256x64_S64x64x64_2_1_1_2_0_0_wf : DotDims.WF S64x64x256 S64x256x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S4x64x64x2048.size a
  hwx0_0 : ∀ i : grid0.Coords, EltTy.bits .f32 = 32 ∨ (Rect.block (s := S4x64x64x2048) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S4x64x64x2048.size a
  hwx0_1 : ∀ i : grid0.Coords, EltTy.bits .f32 = 32 ∨ (Rect.block (s := S4x64x64x2048) S1x64x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x128.size a ≤ S4x64x64x2048.size a
  hwx0_2 : ∀ i : grid0.Coords, EltTy.bits .f32 = 32 ∨ (Rect.block (s := S4x64x64x2048) S1x64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x128.size a ≤ S4x64x64x2048.size a
  hwx0_3 : ∀ i : grid0.Coords, EltTy.bits .f32 = 32 ∨ (Rect.block (s := S4x64x64x2048) S1x64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x128.size a ≤ S4x64x64x2048.size a
  hwx0_4 : ∀ i : grid0.Coords, EltTy.bits .f32 = 32 ∨ (Rect.block (s := S4x64x64x2048) S1x64x64x128.size (cc0_transform_4 i) (hinb0_4 i)).WholeWords (EltTy.packing .f32)

variable [Facts₀]

def dot_S64x64x64_S64x64x256_S64x64x256_2_1_1_2_0_0 : DotDims S64x64x64 S64x64x256 S64x64x256 where
  lhsContracting := [2]
  rhsContracting := [1]
  lhsNonContracting := [1]
  rhsNonContracting := [2]
  lhsBatch := [0]
  rhsBatch := [0]
  wf := dot_S64x64x64_S64x64x256_S64x64x256_2_1_1_2_0_0_wf
def dot_S64x64x256_S64x256x64_S64x64x64_2_1_1_2_0_0 : DotDims S64x64x256 S64x256x64 S64x64x64 where
  lhsContracting := [2]
  rhsContracting := [1]
  lhsNonContracting := [1]
  rhsNonContracting := [2]
  lhsBatch := [0]
  rhsBatch := [0]
  wf := dot_S64x64x256_S64x256x64_S64x64x64_2_1_1_2_0_0_wf

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x64x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x64x2048 : Shape := ⟨4, ![4, 64, 64, 2048]⟩
abbrev S4x64x4x16x2048 : Shape := ⟨5, ![4, 64, 4, 16, 2048]⟩
abbrev S4x4x2048x64x16 : Shape := ⟨5, ![4, 4, 2048, 64, 16]⟩
abbrev S4x4x2048x16x64 : Shape := ⟨5, ![4, 4, 2048, 16, 64]⟩
abbrev S4x4x2048x64x64 : Shape := ⟨5, ![4, 4, 2048, 64, 64]⟩
abbrev S_ : Shape := ⟨0, ![]⟩
abbrev S4x4x2048x64 : Shape := ⟨4, ![4, 4, 2048, 64]⟩
abbrev S4x4x2048x64x1 : Shape := ⟨5, ![4, 4, 2048, 64, 1]⟩
abbrev S4x4x64x64x2048 : Shape := ⟨5, ![4, 4, 64, 64, 2048]⟩
abbrev S4x4096x2048 : Shape := ⟨3, ![4, 4096, 2048]⟩
abbrev S4x1x64x64x2048 : Shape := ⟨5, ![4, 1, 64, 64, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x64x64x2048, .f32⟩
  | .hbm, ⟨1, _⟩ => ⟨S4x64x64x2048, .f32⟩
  | .hbm, ⟨2, _⟩ => ⟨S4x64x64x2048, .f32⟩
  | .hbm, ⟨3, _⟩ => ⟨S4x64x4x16x2048, .f32⟩
  | .hbm, ⟨4, _⟩ => ⟨S4x4x2048x64x16, .f32⟩
  | .hbm, ⟨5, _⟩ => ⟨S4x64x4x16x2048, .f32⟩
  | .hbm, ⟨6, _⟩ => ⟨S4x4x2048x16x64, .f32⟩
  | .hbm, ⟨7, _⟩ => ⟨S4x64x4x16x2048, .f32⟩
  | .hbm, ⟨8, _⟩ => ⟨S4x4x2048x64x16, .f32⟩
  | .hbm, ⟨9, _⟩ => ⟨S4x4x2048x64x64, .f32⟩
  | .hbm, ⟨10, _⟩ => ⟨S_, .f32⟩
  | .hbm, ⟨11, _⟩ => ⟨S4x4x2048x64x64, .f32⟩
  | .hbm, ⟨12, _⟩ => ⟨S4x4x2048x64x64, .f32⟩
  | .hbm, ⟨13, _⟩ => ⟨S_, .f32⟩
  | .hbm, ⟨14, _⟩ => ⟨S4x4x2048x64, .f32⟩
  | .hbm, ⟨15, _⟩ => ⟨S_, .f32⟩
  | .hbm, ⟨16, _⟩ => ⟨S4x4x2048x64, .f32⟩
  | .hbm, ⟨17, _⟩ => ⟨S4x4x2048x64, .f32⟩
  | .hbm, ⟨18, _⟩ => ⟨S4x4x2048x64x1, .f32⟩
  | .hbm, ⟨19, _⟩ => ⟨S4x4x2048x64x64, .f32⟩
  | .hbm, ⟨20, _⟩ => ⟨S4x4x2048x64x64, .f32⟩
  | .hbm, ⟨21, _⟩ => ⟨S4x4x2048x64x64, .f32⟩
  | .hbm, ⟨22, _⟩ => ⟨S_, .f32⟩
  | .hbm, ⟨23, _⟩ => ⟨S4x4x2048x64, .f32⟩
  | .hbm, ⟨24, _⟩ => ⟨S4x4x2048x64x1, .f32⟩
  | .hbm, ⟨25, _⟩ => ⟨S4x4x2048x64x64, .f32⟩
  | .hbm, ⟨26, _⟩ => ⟨S4x4x2048x64x64, .f32⟩
  | .hbm, ⟨27, _⟩ => ⟨S4x4x2048x64x16, .f32⟩
  | .hbm, ⟨28, _⟩ => ⟨S4x4x64x64x2048, .f32⟩
  | .hbm, ⟨29, _⟩ => ⟨S_, .f32⟩
  | .hbm, ⟨30, _⟩ => ⟨S4x64x64x2048, .f32⟩
  | .hbm, ⟨31, _⟩ => ⟨S_, .f32⟩
  | .hbm, ⟨32, _⟩ => ⟨S4x64x64x2048, .f32⟩
  | .hbm, ⟨33, _⟩ => ⟨S4x64x64x2048, .f32⟩
  | .hbm, ⟨34, _⟩ => ⟨S4x64x4x16x2048, .f32⟩
  | .hbm, ⟨35, _⟩ => ⟨S4x4096x2048, .f32⟩
  | .hbm, ⟨36, _⟩ => ⟨S4x1x64x64x2048, .f32⟩
  | _, _ => ⟨S4x64x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x64x64x2048_S4x64x4x16x2048 : S4x64x64x2048.ShapeCasts S4x64x4x16x2048
  transposes_S4x64x4x16x2048_S4x4x2048x64x16_0_2_4_1_3 : S4x64x4x16x2048.Transposes [0, 2, 4, 1, 3] S4x4x2048x64x16
  transposes_S4x64x4x16x2048_S4x4x2048x16x64_0_2_4_3_1 : S4x64x4x16x2048.Transposes [0, 2, 4, 3, 1] S4x4x2048x16x64
  bcast_S_S4x4x2048x64x64 : S_.BroadcastsInDim S4x4x2048x64x64 (![] : Fin 0 → Fin S4x4x2048x64x64.rank)
  reducesTo_S4x4x2048x64x64_S4x4x2048x64_d4 : S4x4x2048x64x64.ReducesTo [4] S4x4x2048x64
  h_S_ : 0 < S_.numel
  bcast_S_S4x4x2048x64 : S_.BroadcastsInDim S4x4x2048x64 (![] : Fin 0 → Fin S4x4x2048x64.rank)
  bcast_S4x4x2048x64_S4x4x2048x64x1_0_1_2_3 : S4x4x2048x64.BroadcastsInDim S4x4x2048x64x1 (![0, 1, 2, 3] : Fin 4 → Fin S4x4x2048x64x1.rank)
  bcast_S4x4x2048x64x1_S4x4x2048x64x64_0_1_2_3_4 : S4x4x2048x64x1.BroadcastsInDim S4x4x2048x64x64 (![0, 1, 2, 3, 4] : Fin 5 → Fin S4x4x2048x64x64.rank)
  transposes_S4x4x2048x64x64_S4x4x64x64x2048_0_1_3_4_2 : S4x4x2048x64x64.Transposes [0, 1, 3, 4, 2] S4x4x64x64x2048
  reducesTo_S4x4x64x64x2048_S4x64x64x2048_d1 : S4x4x64x64x2048.ReducesTo [1] S4x64x64x2048
  bcast_S_S4x64x64x2048 : S_.BroadcastsInDim S4x64x64x2048 (![] : Fin 0 → Fin S4x64x64x2048.rank)
  transposes_S4x4x2048x64x16_S4x64x4x16x2048_0_3_1_4_2 : S4x4x2048x64x16.Transposes [0, 3, 1, 4, 2] S4x64x4x16x2048
  shapeCasts_S4x64x4x16x2048_S4x4096x2048 : S4x64x4x16x2048.ShapeCasts S4x4096x2048
  shapeCasts_S4x64x64x2048_S4x1x64x64x2048 : S4x64x64x2048.ShapeCasts S4x1x64x64x2048
  dot_S4x4x2048x64x16_S4x4x2048x16x64_S4x4x2048x64x64_4_3_3_4_012_012_wf : DotDims.WF S4x4x2048x64x16 S4x4x2048x16x64 S4x4x2048x64x64 [4] [3] [3] [4] [0, 1, 2] [0, 1, 2]
  dot_S4x4x2048x64x64_S4x4x2048x64x16_S4x4x2048x64x16_4_3_3_4_012_012_wf : DotDims.WF S4x4x2048x64x64 S4x4x2048x64x16 S4x4x2048x64x16 [4] [3] [3] [4] [0, 1, 2] [0, 1, 2]

variable [Facts₀]

def dot_S4x4x2048x64x16_S4x4x2048x16x64_S4x4x2048x64x64_4_3_3_4_012_012 : DotDims S4x4x2048x64x16 S4x4x2048x16x64 S4x4x2048x64x64 where
  lhsContracting := [4]
  rhsContracting := [3]
  lhsNonContracting := [3]
  rhsNonContracting := [4]
  lhsBatch := [0, 1, 2]
  rhsBatch := [0, 1, 2]
  wf := dot_S4x4x2048x64x16_S4x4x2048x16x64_S4x4x2048x64x64_4_3_3_4_012_012_wf
def dot_S4x4x2048x64x64_S4x4x2048x64x16_S4x4x2048x64x16_4_3_3_4_012_012 : DotDims S4x4x2048x64x64 S4x4x2048x64x16 S4x4x2048x64x16 where
  lhsContracting := [4]
  rhsContracting := [3]
  lhsNonContracting := [3]
  rhsNonContracting := [4]
  lhsBatch := [0, 1, 2]
  rhsBatch := [0, 1, 2]
  wf := dot_S4x4x2048x64x64_S4x4x2048x64x16_S4x4x2048x64x16_4_3_3_4_012_012_wf

class Facts : Prop extends Facts₀ where

variable [Facts]
-- ==== Proof.Spec.lean ====
/-
  The function both programs compute, stated once, for ONE batch entry and ONE time step.

  Fix a batch entry and a time step. The three inputs are then 64 × 64 tables `qf`, `kf`, `vf`: the row is the
  group (the axis attention runs over), the column the hidden coordinate. The hidden axis is cut into 4 heads of
  16 consecutive columns: column `16·h + d` is coordinate `d` of head `h` (`hcol`).

  * `logit h gq gk`  = (∑ d, qf gq (16h+d) · kf gk (16h+d)) · ¼      (¼ = 16^(-1/2), exactly representable)
  * `rowMax h gq`    = max(-∞, max over gk of the logits)           (the maximum the softmax subtracts)
  * `expo h gq gk`   = exp (logit − rowMax)
  * `denom h gq`     = ∑ gk, expo
  * `attn h gq gk`   = expo / denom                                  (a softmax over gk, per head)
  * `xval g c`       = ∑ gk, attn (c / 16) g gk · vf gk c            (the attended values, head = c / 16)
  * `aval gq gk`     = (∑ h, attn h gq gk) / 4                       (the attention averaged over the heads)

  Everything is on the extended reals with their exact operations; sums are `Finset` sums, so their order and
  grouping do not matter.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- Column `16·h + d` of the hidden axis: coordinate `d` of head `h`. -/
def hcol (h : Fin 4) (d : Fin 16) : Fin 64 := ⟨h.val * 16 + d.val, by omega⟩

theorem hcol_val (h : Fin 4) (d : Fin 16) : (hcol h d).val = h.val * 16 + d.val := rfl

/-- The head a hidden column belongs to. -/
def headOf (c : Fin 64) : Fin 4 := ⟨c.val / 16, by omega⟩

theorem headOf_val (c : Fin 64) : (headOf c).val = c.val / 16 := rfl

theorem headOf_hcol (h : Fin 4) (d : Fin 16) : headOf (hcol h d) = h :=
  Fin.ext (by rw [headOf_val, hcol_val]; omega)

/-- Column `64·h + g` of the packed key axis of length 256: key group `g` inside head `h`'s band of 64. -/
def kcol (h : Fin 4) (g : Fin 64) : Fin 256 := ⟨h.val * 64 + g.val, by omega⟩

theorem kcol_val (h : Fin 4) (g : Fin 64) : (kcol h g).val = h.val * 64 + g.val := rfl

/-- −∞, as both programs write it. -/
def negInf : EReal := Ideal.ofBits .f32 0xFF800000#32
/-- The scale 16^(-1/2) = 0.25, as both programs write it. -/
def quarter : EReal := Ideal.ofBits .f32 0x3E800000#32
/-- The number of heads, 4.0, as both programs write it. -/
def four : EReal := Ideal.ofBits .f32 0x40800000#32

/-- A 64 × 64 table: group × hidden column. -/
abbrev Tab := Fin 64 → Fin 64 → EReal

def logit (qf kf : Tab) (h : Fin 4) (gq gk : Fin 64) : EReal :=
  (∑ d : Fin 16, qf gq (hcol h d) * kf gk (hcol h d)) * quarter

def rowMax (qf kf : Tab) (h : Fin 4) (gq : Fin 64) : EReal :=
  max negInf ((Finset.univ : Finset (Fin 64)).fold max negInf (fun gk => logit qf kf h gq gk))

def expo (qf kf : Tab) (h : Fin 4) (gq gk : Fin 64) : EReal :=
  Ideal.exp (logit qf kf h gq gk - rowMax qf kf h gq)

def denom (qf kf : Tab) (h : Fin 4) (gq : Fin 64) : EReal :=
  ∑ gk : Fin 64, expo qf kf h gq gk

def attn (qf kf : Tab) (h : Fin 4) (gq gk : Fin 64) : EReal :=
  Ideal.div (expo qf kf h gq gk) (denom qf kf h gq)

/-- The attended values at group `g`, hidden column `c` (its head is `c / 16`). -/
def xval (qf kf vf : Tab) (g c : Fin 64) : EReal :=
  ∑ gk : Fin 64, attn qf kf (headOf c) g gk * vf gk c

/-- The attention weight of `gk` for `gq`, averaged over the four heads. -/
def aval (qf kf : Tab) (gq gk : Fin 64) : EReal :=
  Ideal.div (∑ h : Fin 4, attn qf kf h gq gk) four

/-! ## The same over whole arrays [4, 64, 64, 2048] = batch × group × hidden × time -/

/-- An input or output array of the programs. -/
abbrev Arr := (⟨4, ![4, 64, 64, 2048]⟩ : Shape).Idx → EReal

/-- The table of an array at batch entry `b`, time step `t`. -/
def tab (A : Arr) (b : Fin 4) (t : Fin 2048) : Tab := fun g c => A (ix4 b g c t)

/-- The first result before its final reshape: batch × group × hidden × time. -/
def outX (Q K V : Arr) : Arr := fun i => xval (tab Q (i 0) (i 3)) (tab K (i 0) (i 3)) (tab V (i 0) (i 3)) (i 1) (i 2)

/-- The second result before its final reshape: batch × query group × key group × time. -/
def outA (Q K : Arr) : Arr := fun i => aval (tab Q (i 0) (i 3)) (tab K (i 0) (i 3)) (i 1) (i 2)

theorem outX_ix4 (Q K V : Arr) (b : Fin 4) (g c : Fin 64) (t : Fin 2048) :
    outX Q K V (ix4 b g c t) = xval (tab Q b t) (tab K b t) (tab V b t) g c := rfl

theorem outA_ix4 (Q K : Arr) (b : Fin 4) (gq gk : Fin 64) (t : Fin 2048) :
    outA Q K (ix4 b gq gk t) = aval (tab Q b t) (tab K b t) gq gk := rfl

end Cert.Attn

end
-- ==== Proof.RefSide.lean ====
/-
  The reference program read index by index: its two results are the functions `outX` and `outA` of the
  specification, up to the final reshapes.

  The reference cuts the hidden axis of each operand into 4 heads of 16 columns (a reshape, then a transpose
  that brings batch, head and time to the front), takes the logits of each head by a batched product over
  the 16 head coordinates, scales them by 1/4, takes a softmax over the key groups (row maximum, exponential,
  row sum, quotient), multiplies the softmax with the values by a second batched product over the key
  groups, and averages the softmax over the heads. Below, every stage is read at explicit coordinates
  (batch b, head h, time t, groups gq / gk, head coordinate d) and identified with the corresponding
  function of the three 64 × 64 tables at (b, t).
-/
import proofs.«121823_j31353261260858_2_alg».proof.Proof.Gen.ReferenceIdeal.Read
import proofs.«121823_j31353261260858_2_alg».proof.Proof.Spec

noncomputable section

open scoped BigOperators

namespace Cert.Attn.Ref

open Cert.ReferenceIdeal Cert.ReferenceIdeal.Gen Cert.ReferenceIdeal.Read
open Idealize.ShloMosaic Idealize.ShloMosaic.ValueIdx

variable (Q K V : (⟨S4x64x64x2048, .f32⟩ : BufTy).Contents (Elt Ideal))

/-! ## The operands, cut into heads -/

/-- Row-major, position (b, g, h, d, t) of [4, 64, 4, 16, 2048] is position (b, g, 16h + d, t) of
    [4, 64, 64, 2048]: the reshape only splits the hidden axis. -/
theorem split_hidden (b : Fin 4) (g : Fin 64) (h : Fin 4) (d : Fin 16) (t : Fin 2048) :
    idx_main_v0 (ix5 b g h d t) = ix4 b g (hcol h d) t := by
  have hb := b.isLt; have hg := g.isLt; have hh := h.isLt; have hd := d.isLt; have ht := t.isLt
  funext a
  refine Fin.ext ?_
  match a with
  | ⟨0, _⟩ => show ((((b.val * 64 + g.val) * 4 + h.val) * 16 + d.val) * 2048 + t.val) / 8388608 = b.val; omega
  | ⟨1, _⟩ => show ((((b.val * 64 + g.val) * 4 + h.val) * 16 + d.val) * 2048 + t.val) / 131072 % 64 = g.val; omega
  | ⟨2, _⟩ => show ((((b.val * 64 + g.val) * 4 + h.val) * 16 + d.val) * 2048 + t.val) / 2048 % 64 = h.val * 16 + d.val; omega
  | ⟨3, _⟩ => show ((((b.val * 64 + g.val) * 4 + h.val) * 16 + d.val) * 2048 + t.val) % 2048 = t.val; omega

/-- The queries: entry (b, h, t, g, d) of the transposed operand is Q at (b, g, 16h + d, t). -/
theorem q_at (b h : Fin 4) (t : Fin 2048) (g : Fin 64) (d : Fin 16) :
    val_main_v1 (F := Ideal) Q (ix5 b h t g d) = Q (ix4 b g (hcol h d) t) := by
  have e : idx_main_v1 (ix5 b h t g d) = ix5 b g h d t := by
    funext a; match a with | ⟨0, _⟩ => rfl | ⟨1, _⟩ => rfl | ⟨2, _⟩ => rfl | ⟨3, _⟩ => rfl | ⟨4, _⟩ => rfl
  refine (val_main_v1_apply Q _).trans ((congrArg (val_main_v0 (F := Ideal) Q) e).trans ?_)
  exact (val_main_v0_apply Q _).trans (congrArg Q (split_hidden b g h d t))

/-- The keys, transposed the other way: entry (b, h, t, d, g) is K at (b, g, 16h + d, t). -/
theorem k_at (b h : Fin 4) (t : Fin 2048) (d : Fin 16) (g : Fin 64) :
    val_main_v3 (F := Ideal) K (ix5 b h t d g) = K (ix4 b g (hcol h d) t) := by
  have e : idx_main_v3 (ix5 b h t d g) = ix5 b g h d t := by
    funext a; match a with | ⟨0, _⟩ => rfl | ⟨1, _⟩ => rfl | ⟨2, _⟩ => rfl | ⟨3, _⟩ => rfl | ⟨4, _⟩ => rfl
  refine (val_main_v3_apply K _).trans ((congrArg (val_main_v2 (F := Ideal) K) e).trans ?_)
  exact (val_main_v2_apply K _).trans (congrArg K (split_hidden b g h d t))

/-- The values: entry (b, h, t, g, d) is V at (b, g, 16h + d, t). -/
theorem v_at (b h : Fin 4) (t : Fin 2048) (g : Fin 64) (d : Fin 16) :
    val_main_v5 (F := Ideal) V (ix5 b h t g d) = V (ix4 b g (hcol h d) t) := by
  have e : idx_main_v5 (ix5 b h t g d) = ix5 b g h d t := by
    funext a; match a with | ⟨0, _⟩ => rfl | ⟨1, _⟩ => rfl | ⟨2, _⟩ => rfl | ⟨3, _⟩ => rfl | ⟨4, _⟩ => rfl
  refine (val_main_v5_apply V _).trans ((congrArg (val_main_v4 (F := Ideal) V) e).trans ?_)
  exact (val_main_v4_apply V _).trans (congrArg V (split_hidden b g h d t))

/-! ## The logits -/

/-- The scaled logits of head h at (b, t): the product over the 16 head coordinates, times 1/4. -/
theorem logit_at (b h : Fin 4) (t : Fin 2048) (gq gk : Fin 64) :
    val_main_v8 (F := Ideal) Q K (ix5 b h t gq gk) = logit (tab Q b t) (tab K b t) h gq gk := by
  have el : ∀ k : Fin 16, lidx_main_v6 (ix5 b h t gq gk) k = ix5 b h t gq k := fun k => by
    funext a; match a with | ⟨0, _⟩ => rfl | ⟨1, _⟩ => rfl | ⟨2, _⟩ => rfl | ⟨3, _⟩ => rfl | ⟨4, _⟩ => rfl
  have er : ∀ k : Fin 16, ridx_main_v6 (ix5 b h t gq gk) k = ix5 b h t k gk := fun k => by
    funext a; match a with | ⟨0, _⟩ => rfl | ⟨1, _⟩ => rfl | ⟨2, _⟩ => rfl | ⟨3, _⟩ => rfl | ⟨4, _⟩ => rfl
  rw [val_main_v8_apply, val_main_v6_apply, val_main_v7_apply, val_main_cst_apply]
  show (∑ k : Fin 16, _) * quarter = (∑ d : Fin 16, _) * quarter
  refine congrArg (· * quarter) (Finset.sum_congr rfl fun k _ => ?_)
  exact congrArg₂ (· * ·)
    ((congrArg (val_main_v1 (F := Ideal) Q) (el k)).trans (q_at Q b h t gq k))
    ((congrArg (val_main_v3 (F := Ideal) K) (er k)).trans (k_at K b h t k gk))

/-! ## The softmax over the key groups -/

/-- The key-group axis is the one reduced: the index over (b, h, t, gq) with key group gk inserted. -/
theorem lift_gk (hR : S4x4x2048x64x64.Reduces [4] S4x4x2048x64) (b h : Fin 4) (t : Fin 2048) (gq gk : Fin 64) :
    hR.lift (ix4 b h t gq) gk = ix5 b h t gq gk := by
  funext a
  refine Fin.ext ?_
  match a with | ⟨0, _⟩ => rfl | ⟨1, _⟩ => rfl | ⟨2, _⟩ => rfl | ⟨3, _⟩ => rfl | ⟨4, _⟩ => rfl

/-- The maximum the softmax subtracts: −∞ against the maximum over the key groups, taken from −∞. -/
theorem rowMax_at (b h : Fin 4) (t : Fin 2048) (gq : Fin 64) :
    val_main_v11 (F := Ideal) Q K (ix4 b h t gq) = rowMax (tab Q b t) (tab K b t) h gq := by
  have hR : S4x4x2048x64x64.Reduces [4] S4x4x2048x64 := by decide
  have e9 : val_main_v9 (F := Ideal) Q K (ix4 b h t gq)
      = (Finset.univ : Finset (Fin 64)).fold max negInf (fun gk => logit (tab Q b t) (tab K b t) h gq gk) := by
    unfold val_main_v9
    refine (Host.reduce_eq_fold_single (α := Ideal .f32) (FloatOps.maximumf (F := Ideal) (φ := .f32))
      (val_main_v8 (F := Ideal) Q K) (val_main_cst_0 (F := Ideal))
      reducesTo_S4x4x2048x64x64_S4x4x2048x64_d4 hR h_S_ (ix4 b h t gq)).trans ?_
    show (Finset.univ : Finset (Fin 64)).fold max negInf
      (fun gk => val_main_v8 (F := Ideal) Q K (hR.lift (ix4 b h t gq) gk)) = _
    refine congrArg (fun f => (Finset.univ : Finset (Fin 64)).fold max negInf f) (funext fun gk => ?_)
    exact (congrArg (val_main_v8 (F := Ideal) Q K) (lift_gk hR b h t gq gk)).trans (logit_at Q K b h t gq gk)
  rw [val_main_v11_apply, val_main_v10_apply, val_main_cst_1_apply, e9]
  rfl

/-- The exponentials. -/
theorem expo_at (b h : Fin 4) (t : Fin 2048) (gq gk : Fin 64) :
    val_main_v15 (F := Ideal) Q K (ix5 b h t gq gk) = expo (tab Q b t) (tab K b t) h gq gk := by
  have e : idx_main_v12 (idx_main_v13 (ix5 b h t gq gk)) = ix4 b h t gq := by
    funext a; match a with | ⟨0, _⟩ => rfl | ⟨1, _⟩ => rfl | ⟨2, _⟩ => rfl | ⟨3, _⟩ => rfl
  rw [val_main_v15_apply, val_main_v14_apply, val_main_v13_apply, val_main_v12_apply, e, logit_at, rowMax_at]
  rfl

/-- Their sum over the key groups (taken from 0). -/
theorem denom_at (b h : Fin 4) (t : Fin 2048) (gq : Fin 64) :
    val_main_v16 (F := Ideal) Q K (ix4 b h t gq) = denom (tab Q b t) (tab K b t) h gq := by
  have e : ∀ k : Fin 64, idx_main_v16 (ix4 b h t gq) k = ix5 b h t gq k := fun k => by
    funext a; match a with | ⟨0, _⟩ => rfl | ⟨1, _⟩ => rfl | ⟨2, _⟩ => rfl | ⟨3, _⟩ => rfl | ⟨4, _⟩ => rfl
  rw [val_main_v16_apply, val_main_cst_2_apply, Ideal.ofBits_def, Ideal.ofBits_zero_f32, zero_add]
  exact Finset.sum_congr rfl fun k _ =>
    (congrArg (val_main_v15 (F := Ideal) Q K) (e k)).trans (expo_at Q K b h t gq k)

/-- The softmax. -/
theorem attn_at (b h : Fin 4) (t : Fin 2048) (gq gk : Fin 64) :
    val_main_v19 (F := Ideal) Q K (ix5 b h t gq gk) = attn (tab Q b t) (tab K b t) h gq gk := by
  have e : idx_main_v17 (idx_main_v18 (ix5 b h t gq gk)) = ix4 b h t gq := by
    funext a; match a with | ⟨0, _⟩ => rfl | ⟨1, _⟩ => rfl | ⟨2, _⟩ => rfl | ⟨3, _⟩ => rfl
  rw [val_main_v19_apply, val_main_v18_apply, val_main_v17_apply, e, expo_at, denom_at]
  rfl

/-! ## The attended values -/

/-- Head h's softmax times the values, over the key groups: coordinate d of head h is hidden column 16h + d. -/
theorem x_at (b h : Fin 4) (t : Fin 2048) (g : Fin 64) (d : Fin 16) :
    val_main_v20 (F := Ideal) Q K V (ix5 b h t g d)
      = xval (tab Q b t) (tab K b t) (tab V b t) g (hcol h d) := by
  have el : ∀ k : Fin 64, lidx_main_v20 (ix5 b h t g d) k = ix5 b h t g k := fun k => by
    funext a; match a with | ⟨0, _⟩ => rfl | ⟨1, _⟩ => rfl | ⟨2, _⟩ => rfl | ⟨3, _⟩ => rfl | ⟨4, _⟩ => rfl
  have er : ∀ k : Fin 64, ridx_main_v20 (ix5 b h t g d) k = ix5 b h t k d := fun k => by
    funext a; match a with | ⟨0, _⟩ => rfl | ⟨1, _⟩ => rfl | ⟨2, _⟩ => rfl | ⟨3, _⟩ => rfl | ⟨4, _⟩ => rfl
  rw [val_main_v20_apply]
  unfold xval
  rw [headOf_hcol]
  refine Finset.sum_congr rfl fun k _ => ?_
  exact congrArg₂ (· * ·)
    ((congrArg (val_main_v19 (F := Ideal) Q K) (el k)).trans (attn_at Q K b h t g k))
    ((congrArg (val_main_v5 (F := Ideal) V) (er k)).trans (v_at V b h t k d))

/-- (1) The first result before its reshape, at (b, g, h, d, t): the attended value at group g, column 16h + d. -/
theorem ref_x (b : Fin 4) (g : Fin 64) (h : Fin 4) (d : Fin 16) (t : Fin 2048) :
    val_main_v25 (F := Ideal) Q K V (ix5 b g h d t) = outX Q K V (ix4 b g (hcol h d) t) := by
  have e : idx_main_v25 (ix5 b g h d t) = ix5 b h t g d := by
    funext a; match a with | ⟨0, _⟩ => rfl | ⟨1, _⟩ => rfl | ⟨2, _⟩ => rfl | ⟨3, _⟩ => rfl | ⟨4, _⟩ => rfl
  refine (val_main_v25_apply Q K V _).trans ((congrArg (val_main_v20 (F := Ideal) Q K V) e).trans ?_)
  exact (x_at Q K V b h t g d).trans (outX_ix4 Q K V b g (hcol h d) t).symm

/-! ## The softmax averaged over the heads -/

/-- (2) The second result before its reshape: the sum of the four heads' softmax (taken from 0), over 4. -/
theorem ref_a (b : Fin 4) (gq gk : Fin 64) (t : Fin 2048) :
    val_main_v24 (F := Ideal) Q K (ix4 b gq gk t) = outA Q K (ix4 b gq gk t) := by
  have e : ∀ k : Fin 4, idx_main_v21 (idx_main_v22 (ix4 b gq gk t) k) = ix5 b k t gq gk := fun k => by
    funext a; match a with | ⟨0, _⟩ => rfl | ⟨1, _⟩ => rfl | ⟨2, _⟩ => rfl | ⟨3, _⟩ => rfl | ⟨4, _⟩ => rfl
  rw [val_main_v24_apply, val_main_v22_apply, val_main_v23_apply, val_main_cst_3_apply, val_main_cst_4_apply, outA_ix4]
  simp only [Ideal.ofBits_def]
  rw [Ideal.ofBits_zero_f32, zero_add]
  unfold aval
  show Ideal.div _ four = Ideal.div _ four
  refine congrArg (fun s => Ideal.div s four) (Finset.sum_congr rfl fun k _ => ?_)
  refine (val_main_v21_apply Q K _).trans ((congrArg (val_main_v19 (F := Ideal) Q K) (e k)).trans ?_)
  exact attn_at Q K b k t gq gk

/-! ## The two results -/

/-- (3) The first result: row r of the 4096 axis is group r / 64, hidden column r % 64. -/
theorem res1 (hc : (⟨4, ![4, 64, 64, 2048]⟩ : Shape).ShapeCasts ⟨3, ![4, 4096, 2048]⟩) :
    val_main_v26 (F := Ideal) Q K V = shapeCast ⟨3, ![4, 4096, 2048]⟩ (outX Q K V) hc := by
  funext i
  obtain ⟨b, r, t, rfl⟩ : ∃ (b : Fin 4) (r : Fin 4096) (t : Fin 2048), i = ix3 b r t :=
    ⟨i 0, i 1, i 2, eq_ix3 i⟩
  have hb := b.isLt; have hr := r.isLt; have ht := t.isLt
  have e : idx_main_v26 (ix3 b r t)
      = ix5 b (⟨r.val / 64, by omega⟩ : Fin 64) (⟨r.val % 64 / 16, by omega⟩ : Fin 4) (⟨r.val % 16, by omega⟩ : Fin 16) t := by
    funext a
    refine Fin.ext ?_
    match a with
    | ⟨0, _⟩ => show ((b.val * 4096 + r.val) * 2048 + t.val) / 8388608 = b.val; omega
    | ⟨1, _⟩ => show ((b.val * 4096 + r.val) * 2048 + t.val) / 131072 % 64 = r.val / 64; omega
    | ⟨2, _⟩ => show ((b.val * 4096 + r.val) * 2048 + t.val) / 32768 % 4 = r.val % 64 / 16; omega
    | ⟨3, _⟩ => show ((b.val * 4096 + r.val) * 2048 + t.val) / 2048 % 16 = r.val % 16; omega
    | ⟨4, _⟩ => show ((b.val * 4096 + r.val) * 2048 + t.val) % 2048 = t.val; omega
  refine (val_main_v26_apply Q K V _).trans ((congrArg (val_main_v25 (F := Ideal) Q K V) e).trans ?_)
  refine (ref_x Q K V b _ _ _ t).trans ?_
  refine (shapeCast_apply (outX Q K V) hc (ix3 b r t) _ ?_).symm
  rw [Shape.rowMajor_val_four, Shape.rowMajor_val_three]
  show ((b.val * 64 + r.val / 64) * 64 + (r.val % 64 / 16 * 16 + r.val % 16)) * 2048 + t.val
    = (b.val * 4096 + r.val) * 2048 + t.val
  omega

/-- (4) The second result: the same array with a unit axis inserted. -/
theorem res2 (hc : (⟨4, ![4, 64, 64, 2048]⟩ : Shape).ShapeCasts ⟨5, ![4, 1, 64, 64, 2048]⟩) :
    val_main_v27 (F := Ideal) Q K = shapeCast ⟨5, ![4, 1, 64, 64, 2048]⟩ (outA Q K) hc := by
  have e : val_main_v24 (F := Ideal) Q K = outA Q K := funext fun i => by
    obtain ⟨b, gq, gk, t, rfl⟩ : ∃ (b : Fin 4) (gq gk : Fin 64) (t : Fin 2048), i = ix4 b gq gk t :=
      ⟨i 0, i 1, i 2, i 3, eq_ix4 i⟩
    exact ref_a Q K b gq gk t
  unfold val_main_v27
  exact congrArg (fun f => shapeCast ⟨5, ![4, 1, 64, 64, 2048]⟩ f hc) e

end Cert.Attn.Ref

end
-- ==== Proof.SoftCore.lean ====
/-
  The arithmetic of one chunk of the kernel body, for ANY three packed operands.

  For 64 time steps `s` at once the body holds the queries `Qc` [s, gq, c], a packed key operand `Kbd` [s, c, n]
  (n = 64·h + gk runs over 4 bands of 64 key groups) and a packed value operand `Vbd` [s, n, c]. It forms
  Qc · Kbd (a contraction over all 64 hidden columns c), scales by ¼, regroups n as (h, gk), takes a softmax over gk,
  and multiplies the result (n regrouped flat again) with Vbd. When Kbd and Vbd are BLOCK-DIAGONAL — the entry at hidden
  column 16·h' + d and band h is zero unless h' = h — the contraction over 64 columns keeps head h's 16 columns only and the
  contraction over 256 packed keys keeps band c / 16 only: these are the per-head logits and the per-head attended values.
-/
import proofs.«121823_j31353261260858_2_alg».proof.Proof.Gen.KernelIdeal.Skeleton
import proofs.«121823_j31353261260858_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.Attn.Core

open Idealize.ShloMosaic Idealize.ShloMosaic.ValueIdx Cert.KernelIdeal Cert.KernelIdeal.Facts₀ Cert.KernelIdeal.Facts Cert.Attn

/-! ## Sums over the 64 hidden columns by head, and over the 256 packed keys by band -/

/-- A sum over the 64 hidden columns, head by head. -/
theorem sum_hcol {M : Type*} [AddCommMonoid M] (f : Fin 64 → M) :
    ∑ j : Fin 64, f j = ∑ h : Fin 4, ∑ d : Fin 16, f (hcol h d) := by
  rw [← Finset.sum_product', Finset.univ_product_univ]
  exact (Fintype.sum_equiv finProdFinEquiv (fun p : Fin 4 × Fin 16 => f (hcol p.1 p.2)) f
    (fun p => congrArg f (Fin.ext (by simp only [hcol, finProdFinEquiv, Equiv.coe_fn_mk]; omega)))).symm

/-- A sum over the 256 packed keys, band by band. -/
theorem sum_kcol {M : Type*} [AddCommMonoid M] (f : Fin 256 → M) :
    ∑ n : Fin 256, f n = ∑ h : Fin 4, ∑ g : Fin 64, f (kcol h g) := by
  rw [← Finset.sum_product', Finset.univ_product_univ]
  exact (Fintype.sum_equiv finProdFinEquiv (fun p : Fin 4 × Fin 64 => f (kcol p.1 p.2)) f
    (fun p => congrArg f (Fin.ext (by simp only [kcol, finProdFinEquiv, Equiv.coe_fn_mk]; omega)))).symm

/-! ## The two contractions read at an index -/

theorem matmulQK_l0 (i : S64x64x256.Idx) (q : dot_S64x64x64_S64x64x256_S64x64x256_2_1_1_2_0_0.contr.Idx) : (dot_S64x64x64_S64x64x256_S64x64x256_2_1_1_2_0_0.lhsIdx i q 0).val = (i 0).val := by
  unfold DotDims.lhsIdx
  rw [dif_pos (show (0 : Fin S64x64x64.rank) ∈ dot_S64x64x64_S64x64x256_S64x64x256_2_1_1_2_0_0.lhsBatch by decide)]
  rfl
theorem matmulQK_l1 (i : S64x64x256.Idx) (q : dot_S64x64x64_S64x64x256_S64x64x256_2_1_1_2_0_0.contr.Idx) : (dot_S64x64x64_S64x64x256_S64x64x256_2_1_1_2_0_0.lhsIdx i q 1).val = (i 1).val := by
  unfold DotDims.lhsIdx
  rw [dif_neg (show ¬(1 : Fin S64x64x64.rank) ∈ dot_S64x64x64_S64x64x256_S64x64x256_2_1_1_2_0_0.lhsBatch by decide), dif_pos (show (1 : Fin S64x64x64.rank) ∈ dot_S64x64x64_S64x64x256_S64x64x256_2_1_1_2_0_0.lhsNonContracting by decide)]
  rfl
theorem matmulQK_l2 (i : S64x64x256.Idx) (q : dot_S64x64x64_S64x64x256_S64x64x256_2_1_1_2_0_0.contr.Idx) : (dot_S64x64x64_S64x64x256_S64x64x256_2_1_1_2_0_0.lhsIdx i q 2).val = (q ⟨0, by decide⟩).val :=
  dot_S64x64x64_S64x64x256_S64x64x256_2_1_1_2_0_0.lhsIdx_val_of_single rfl i q
theorem matmulQK_r0 (i : S64x64x256.Idx) (q : dot_S64x64x64_S64x64x256_S64x64x256_2_1_1_2_0_0.contr.Idx) : (dot_S64x64x64_S64x64x256_S64x64x256_2_1_1_2_0_0.rhsIdx i q 0).val = (i 0).val := by
  unfold DotDims.rhsIdx
  rw [dif_pos (show (0 : Fin S64x64x256.rank) ∈ dot_S64x64x64_S64x64x256_S64x64x256_2_1_1_2_0_0.rhsBatch by decide)]
  rfl
theorem matmulQK_r1 (i : S64x64x256.Idx) (q : dot_S64x64x64_S64x64x256_S64x64x256_2_1_1_2_0_0.contr.Idx) : (dot_S64x64x64_S64x64x256_S64x64x256_2_1_1_2_0_0.rhsIdx i q 1).val = (q ⟨0, by decide⟩).val :=
  dot_S64x64x64_S64x64x256_S64x64x256_2_1_1_2_0_0.rhsIdx_val_of_single rfl i q
theorem matmulQK_r2 (i : S64x64x256.Idx) (q : dot_S64x64x64_S64x64x256_S64x64x256_2_1_1_2_0_0.contr.Idx) : (dot_S64x64x64_S64x64x256_S64x64x256_2_1_1_2_0_0.rhsIdx i q 2).val = (i 2).val := by
  unfold DotDims.rhsIdx
  rw [dif_neg (show ¬(2 : Fin S64x64x256.rank) ∈ dot_S64x64x64_S64x64x256_S64x64x256_2_1_1_2_0_0.rhsBatch by decide), dif_pos (show (2 : Fin S64x64x256.rank) ∈ dot_S64x64x64_S64x64x256_S64x64x256_2_1_1_2_0_0.rhsNonContracting by decide)]
  rfl

/-- Qc · Kbd into the zero accumulator, at (s, gq, n): the sum over the hidden columns. -/
theorem matmulQK_apply (Qc : FVec Ideal S64x64x64 .f32) (Kbd : FVec Ideal S64x64x256 .f32) (s gq : Fin 64) (n : Fin 256) :
    matmul dot_S64x64x64_S64x64x256_S64x64x256_2_1_1_2_0_0 none Qc Kbd (constant S64x64x256 .f32 0x00000000#32) (ix3 s gq n)
      = ∑ k : Fin 64, Qc (ix3 s gq k) * Kbd (ix3 s k n) := by
  simp only [matmul]
  rw [Ideal.matmul_constant_zero_apply, ← Equiv.sum_comp (contrEquiv1 dot_S64x64x64_S64x64x256_S64x64x256_2_1_1_2_0_0 64 rfl rfl).symm]
  refine Finset.sum_congr rfl fun k _ => ?_
  have hk := contrEquiv1_symm_val dot_S64x64x64_S64x64x256_S64x64x256_2_1_1_2_0_0 64 rfl rfl k
  have el : dot_S64x64x64_S64x64x256_S64x64x256_2_1_1_2_0_0.lhsIdx (ix3 s gq n) ((contrEquiv1 dot_S64x64x64_S64x64x256_S64x64x256_2_1_1_2_0_0 64 rfl rfl).symm k) = ix3 s gq k := funext fun a => Fin.ext (by
    match a with
    | ⟨0, _⟩ => exact matmulQK_l0 _ _
    | ⟨1, _⟩ => exact matmulQK_l1 _ _
    | ⟨2, _⟩ => exact (matmulQK_l2 _ _).trans hk)
  have er : dot_S64x64x64_S64x64x256_S64x64x256_2_1_1_2_0_0.rhsIdx (ix3 s gq n) ((contrEquiv1 dot_S64x64x64_S64x64x256_S64x64x256_2_1_1_2_0_0 64 rfl rfl).symm k) = ix3 s k n := funext fun a => Fin.ext (by
    match a with
    | ⟨0, _⟩ => exact matmulQK_r0 _ _
    | ⟨1, _⟩ => exact (matmulQK_r1 _ _).trans hk
    | ⟨2, _⟩ => exact matmulQK_r2 _ _)
  rw [el, er]

theorem matmulAV_l0 (i : S64x64x64.Idx) (q : dot_S64x64x256_S64x256x64_S64x64x64_2_1_1_2_0_0.contr.Idx) : (dot_S64x64x256_S64x256x64_S64x64x64_2_1_1_2_0_0.lhsIdx i q 0).val = (i 0).val := by
  unfold DotDims.lhsIdx
  rw [dif_pos (show (0 : Fin S64x64x256.rank) ∈ dot_S64x64x256_S64x256x64_S64x64x64_2_1_1_2_0_0.lhsBatch by decide)]
  rfl
theorem matmulAV_l1 (i : S64x64x64.Idx) (q : dot_S64x64x256_S64x256x64_S64x64x64_2_1_1_2_0_0.contr.Idx) : (dot_S64x64x256_S64x256x64_S64x64x64_2_1_1_2_0_0.lhsIdx i q 1).val = (i 1).val := by
  unfold DotDims.lhsIdx
  rw [dif_neg (show ¬(1 : Fin S64x64x256.rank) ∈ dot_S64x64x256_S64x256x64_S64x64x64_2_1_1_2_0_0.lhsBatch by decide), dif_pos (show (1 : Fin S64x64x256.rank) ∈ dot_S64x64x256_S64x256x64_S64x64x64_2_1_1_2_0_0.lhsNonContracting by decide)]
  rfl
theorem matmulAV_l2 (i : S64x64x64.Idx) (q : dot_S64x64x256_S64x256x64_S64x64x64_2_1_1_2_0_0.contr.Idx) : (dot_S64x64x256_S64x256x64_S64x64x64_2_1_1_2_0_0.lhsIdx i q 2).val = (q ⟨0, by decide⟩).val :=
  dot_S64x64x256_S64x256x64_S64x64x64_2_1_1_2_0_0.lhsIdx_val_of_single rfl i q
theorem matmulAV_r0 (i : S64x64x64.Idx) (q : dot_S64x64x256_S64x256x64_S64x64x64_2_1_1_2_0_0.contr.Idx) : (dot_S64x64x256_S64x256x64_S64x64x64_2_1_1_2_0_0.rhsIdx i q 0).val = (i 0).val := by
  unfold DotDims.rhsIdx
  rw [dif_pos (show (0 : Fin S64x256x64.rank) ∈ dot_S64x64x256_S64x256x64_S64x64x64_2_1_1_2_0_0.rhsBatch by decide)]
  rfl
theorem matmulAV_r1 (i : S64x64x64.Idx) (q : dot_S64x64x256_S64x256x64_S64x64x64_2_1_1_2_0_0.contr.Idx) : (dot_S64x64x256_S64x256x64_S64x64x64_2_1_1_2_0_0.rhsIdx i q 1).val = (q ⟨0, by decide⟩).val :=
  dot_S64x64x256_S64x256x64_S64x64x64_2_1_1_2_0_0.rhsIdx_val_of_single rfl i q
theorem matmulAV_r2 (i : S64x64x64.Idx) (q : dot_S64x64x256_S64x256x64_S64x64x64_2_1_1_2_0_0.contr.Idx) : (dot_S64x64x256_S64x256x64_S64x64x64_2_1_1_2_0_0.rhsIdx i q 2).val = (i 2).val := by
  unfold DotDims.rhsIdx
  rw [dif_neg (show ¬(2 : Fin S64x256x64.rank) ∈ dot_S64x64x256_S64x256x64_S64x64x64_2_1_1_2_0_0.rhsBatch by decide), dif_pos (show (2 : Fin S64x256x64.rank) ∈ dot_S64x64x256_S64x256x64_S64x64x64_2_1_1_2_0_0.rhsNonContracting by decide)]
  rfl

/-- A · Vbd into the zero accumulator, at (s, gq, c): the sum over the 256 packed keys. -/
theorem matmulAV_apply (A : FVec Ideal S64x64x256 .f32) (Vbd : FVec Ideal S64x256x64 .f32) (s gq c : Fin 64) :
    matmul dot_S64x64x256_S64x256x64_S64x64x64_2_1_1_2_0_0 none A Vbd (constant S64x64x64 .f32 0x00000000#32) (ix3 s gq c)
      = ∑ k : Fin 256, A (ix3 s gq k) * Vbd (ix3 s k c) := by
  simp only [matmul]
  rw [Ideal.matmul_constant_zero_apply, ← Equiv.sum_comp (contrEquiv1 dot_S64x64x256_S64x256x64_S64x64x64_2_1_1_2_0_0 256 rfl rfl).symm]
  refine Finset.sum_congr rfl fun k _ => ?_
  have hk := contrEquiv1_symm_val dot_S64x64x256_S64x256x64_S64x64x64_2_1_1_2_0_0 256 rfl rfl k
  have el : dot_S64x64x256_S64x256x64_S64x64x64_2_1_1_2_0_0.lhsIdx (ix3 s gq c) ((contrEquiv1 dot_S64x64x256_S64x256x64_S64x64x64_2_1_1_2_0_0 256 rfl rfl).symm k) = ix3 s gq k := funext fun a => Fin.ext (by
    match a with
    | ⟨0, _⟩ => exact matmulAV_l0 _ _
    | ⟨1, _⟩ => exact matmulAV_l1 _ _
    | ⟨2, _⟩ => exact (matmulAV_l2 _ _).trans hk)
  have er : dot_S64x64x256_S64x256x64_S64x64x64_2_1_1_2_0_0.rhsIdx (ix3 s gq c) ((contrEquiv1 dot_S64x64x256_S64x256x64_S64x64x64_2_1_1_2_0_0 256 rfl rfl).symm k) = ix3 s k c := funext fun a => Fin.ext (by
    match a with
    | ⟨0, _⟩ => exact matmulAV_r0 _ _
    | ⟨1, _⟩ => exact (matmulAV_r1 _ _).trans hk
    | ⟨2, _⟩ => exact matmulAV_r2 _ _)
  rw [el, er]

/-! ## The regroupings of the packed key axis, the keepdims broadcasts and the reductions, read at an index -/

/-- [s, gq, 256] regrouped as [s, gq, 4, 64]: entry (h, gk) is packed key 64·h + gk. -/
theorem split_apply (X : FVec Ideal S64x64x256 .f32) (s gq : Fin 64) (h : Fin 4) (gk : Fin 64) :
    shapeCast S64x64x4x64 X shapeCasts_S64x64x256_S64x64x4x64 (ix4 s gq h gk) = X (ix3 s gq (kcol h gk)) :=
  shapeCast_apply X shapeCasts_S64x64x256_S64x64x4x64 (ix4 s gq h gk) (ix3 s gq (kcol h gk)) (by
    rw [Shape.rowMajor_val_three, Shape.rowMajor_val_four]
    show (s.val * 64 + gq.val) * 256 + (h.val * 64 + gk.val) = ((s.val * 64 + gq.val) * 4 + h.val) * 64 + gk.val
    omega)

/-- … and flat again. -/
theorem merge_apply (X : FVec Ideal S64x64x4x64 .f32) (s gq : Fin 64) (h : Fin 4) (gk : Fin 64) :
    shapeCast S64x64x256 X shapeCasts_S64x64x4x64_S64x64x256 (ix3 s gq (kcol h gk)) = X (ix4 s gq h gk) :=
  shapeCast_apply X shapeCasts_S64x64x4x64_S64x64x256 (ix3 s gq (kcol h gk)) (ix4 s gq h gk) (by
    rw [Shape.rowMajor_val_three, Shape.rowMajor_val_four]
    show ((s.val * 64 + gq.val) * 4 + h.val) * 64 + gk.val = (s.val * 64 + gq.val) * 256 + (h.val * 64 + gk.val)
    omega)

/-- A per-(s, gq, h) value broadcast along the key axis (keepdims, then broadcast). -/
theorem keep_apply (x : FVec Ideal S64x64x4 .f32) (s gq : Fin 64) (h : Fin 4) (gk : Fin 64) :
    broadcastTo S64x64x4x64 (shapeCast S64x64x4x1 x shapeCasts_S64x64x4_S64x64x4x1) broadcasts_S64x64x4x1_S64x64x4x64 (ix4 s gq h gk)
      = x (ix3 s gq h) := by
  refine (broadcastTo_apply _ broadcasts_S64x64x4x1_S64x64x4x64 (ix4 s gq h gk) (ix4 s gq h (0 : Fin 1)) (fun a => ?_)).trans ?_
  · match a with
    | ⟨0, _⟩ => rfl
    | ⟨1, _⟩ => rfl
    | ⟨2, _⟩ => rfl
    | ⟨3, _⟩ => rfl
  · exact shapeCast_apply x shapeCasts_S64x64x4_S64x64x4x1 (ix4 s gq h (0 : Fin 1)) (ix3 s gq h) (by
      rw [Shape.rowMajor_val_three, Shape.rowMajor_val_four]
      show (s.val * 64 + gq.val) * 4 + h.val = ((s.val * 64 + gq.val) * 4 + h.val) * 1 + 0
      omega)

/-- The reduced index (s, gq, h) with key `k` put back on the last axis. -/
theorem lift_key (s gq : Fin 64) (h : Fin 4) (k : Fin (S64x64x4x64.size 3)) :
    reduces_S64x64x4x64_S64x64x4.lift (ix3 s gq h) k = ix4 s gq h (⟨k.val, k.isLt⟩ : Fin 64) := by
  funext c; apply Fin.ext
  match c with
  | ⟨0, _⟩ => rfl
  | ⟨1, _⟩ => rfl
  | ⟨2, _⟩ => rfl
  | ⟨3, _⟩ => rfl

/-- The reduced index (s, gq, gk) with head `k` put back on the third axis. -/
theorem lift_head (s gq gk : Fin 64) (k : Fin (S64x64x4x64.size 2)) :
    reduces_S64x64x4x64_S64x64x64.lift (ix3 s gq gk) k = ix4 s gq (⟨k.val, k.isLt⟩ : Fin 4) gk := by
  funext c; apply Fin.ext
  match c with
  | ⟨0, _⟩ => rfl
  | ⟨1, _⟩ => rfl
  | ⟨2, _⟩ => rfl
  | ⟨3, _⟩ => rfl

/-! ## The chunk's arithmetic as named stages -/

/-- The scaled logits, regrouped by head: [s, gq, h, gk]. -/
def logits (Qc : FVec Ideal S64x64x64 .f32) (Kbd : FVec Ideal S64x64x256 .f32) : FVec Ideal S64x64x4x64 .f32 :=
  shapeCast S64x64x4x64
    (mulf (matmul dot_S64x64x64_S64x64x256_S64x64x256_2_1_1_2_0_0 none Qc Kbd (constant S64x64x256 .f32 0x00000000#32))
      (broadcast S64x64x256 (Scalar.ofBits .f32 0x3E800000#32)))
    shapeCasts_S64x64x256_S64x64x4x64

/-- The maximum over the key axis (started from −∞, and once more against −∞), broadcast back along it. -/
def rmax (L : FVec Ideal S64x64x4x64 .f32) : FVec Ideal S64x64x4x64 .f32 :=
  broadcastTo S64x64x4x64
    (shapeCast S64x64x4x1
      (maximumf (broadcast S64x64x4 (Scalar.ofBits .f32 0xFF800000#32))
        (multiReduction .maximumf [3] S64x64x4 L 0xFF800000#32 reduces_S64x64x4x64_S64x64x4 (.inl rfl) rfl))
      shapeCasts_S64x64x4_S64x64x4x1)
    broadcasts_S64x64x4x1_S64x64x4x64

/-- The exponentials of the logits less their maximum. -/
def expos (L : FVec Ideal S64x64x4x64 .f32) : FVec Ideal S64x64x4x64 .f32 := exp (subf L (rmax L))

/-- The sum over the key axis, broadcast back along it. -/
def rsum (E : FVec Ideal S64x64x4x64 .f32) : FVec Ideal S64x64x4x64 .f32 :=
  broadcastTo S64x64x4x64
    (shapeCast S64x64x4x1
      (multiReduction .add [3] S64x64x4 E 0x00000000#32 reduces_S64x64x4x64_S64x64x4 (.inl rfl) rfl)
      shapeCasts_S64x64x4_S64x64x4x1)
    broadcasts_S64x64x4x1_S64x64x4x64

/-- The per-head attention weights [s, gq, h, gk]. -/
def smax (Qc : FVec Ideal S64x64x64 .f32) (Kbd : FVec Ideal S64x64x256 .f32) : FVec Ideal S64x64x4x64 .f32 :=
  divf (expos (logits Qc Kbd)) (rsum (expos (logits Qc Kbd)))

/-- The value stored to the first output [1, g, c, s]: the weights (flat over the packed keys) times the packed values, time moved last. -/
def xpay (Qc : FVec Ideal S64x64x64 .f32) (Kbd : FVec Ideal S64x64x256 .f32) (Vbd : FVec Ideal S64x256x64 .f32) : FVec Ideal S1x64x64x64 .f32 :=
  shapeCast S1x64x64x64
    (transpose S64x64x64 [1, 2, 0]
      (matmul dot_S64x64x256_S64x256x64_S64x64x64_2_1_1_2_0_0 none
        (shapeCast S64x64x256 (smax Qc Kbd) shapeCasts_S64x64x4x64_S64x64x256) Vbd (constant S64x64x64 .f32 0x00000000#32))
      transposes_S64x64x64_p1_2_0_S64x64x64)
    shapeCasts_S64x64x64_S1x64x64x64

/-- The value stored to the second output [1, gq, gk, s]: the weights summed over the heads, divided by 4, time moved last. -/
def apay (Qc : FVec Ideal S64x64x64 .f32) (Kbd : FVec Ideal S64x64x256 .f32) : FVec Ideal S1x64x64x64 .f32 :=
  shapeCast S1x64x64x64
    (transpose S64x64x64 [1, 2, 0]
      (divf (multiReduction .add [2] S64x64x64 (smax Qc Kbd) 0x00000000#32 reduces_S64x64x4x64_S64x64x64 (.inl rfl) rfl)
        (broadcast S64x64x64 (Scalar.ofBits .f32 0x40800000#32)))
      transposes_S64x64x64_p1_2_0_S64x64x64)
    shapeCasts_S64x64x64_S1x64x64x64

/-! ## The stages read at an index, for block-diagonal operands -/

section AtTimeStep

variable (Qc : FVec Ideal S64x64x64 .f32) (Kbd : FVec Ideal S64x64x256 .f32) (Vbd : FVec Ideal S64x256x64 .f32)
  (s : Fin 64) (qf kf vf : Tab)
  (hQ : ∀ g c : Fin 64, Qc (ix3 s g c) = qf g c)
  (hK : ∀ (h' : Fin 4) (d : Fin 16) (h : Fin 4) (g : Fin 64), Kbd (ix3 s (hcol h' d) (kcol h g)) = if h' = h then kf g (hcol h d) else 0)
  (hV : ∀ (h' : Fin 4) (g : Fin 64) (h : Fin 4) (d : Fin 16), Vbd (ix3 s (kcol h' g) (hcol h d)) = if h' = h then vf g (hcol h d) else 0)

include hQ hK in
/-- The packed contraction over all 64 hidden columns keeps head `h`'s 16 columns: the other heads' entries of the packed
    key operand are zero. -/
theorem logits_apply (gq : Fin 64) (h : Fin 4) (gk : Fin 64) :
    logits Qc Kbd (ix4 s gq h gk) = logit qf kf h gq gk := by
  unfold logits
  rw [split_apply, mulf_apply, broadcast_apply, matmulQK_apply, sum_hcol]
  unfold logit quarter
  refine congrArg (· * _) ?_
  rw [Finset.sum_eq_single h]
  · exact Finset.sum_congr rfl fun d _ => by rw [hQ, hK, if_pos rfl]
  · intro h' _ hne
    exact Finset.sum_eq_zero fun d _ => by rw [hK, if_neg hne, mul_zero]
  · intro hh; exact absurd (Finset.mem_univ h) hh

/-- The row maximum of any [s, gq, h, gk] table, at an index. -/
theorem rmax_apply (L : FVec Ideal S64x64x4x64 .f32) (gq : Fin 64) (h : Fin 4) (gk : Fin 64) :
    rmax L (ix4 s gq h gk) = max negInf ((Finset.univ : Finset (Fin 64)).fold max negInf (fun k => L (ix4 s gq h k))) := by
  unfold rmax
  rw [keep_apply, maximumf_apply, broadcast_apply]
  refine congrArg (max negInf) ?_
  refine (Ideal.multiReduction_maximumf_single L 0xFF800000#32 reduces_S64x64x4x64_S64x64x4 (.inl rfl) rfl (ix3 s gq h)).trans ?_
  exact congrArg (fun f => Finset.fold max negInf f (Finset.univ : Finset (Fin 64)))
    (funext fun k => congrArg L (lift_key s gq h k))

/-- The row sum of any [s, gq, h, gk] table, at an index. -/
theorem rsum_apply (E : FVec Ideal S64x64x4x64 .f32) (gq : Fin 64) (h : Fin 4) (gk : Fin 64) :
    rsum E (ix4 s gq h gk) = ∑ k : Fin 64, E (ix4 s gq h k) := by
  unfold rsum
  rw [keep_apply]
  refine (Ideal.multiReduction_add_single E 0x00000000#32 reduces_S64x64x4x64_S64x64x4 (.inl rfl) rfl (ix3 s gq h)).trans ?_
  exact Finset.sum_congr rfl fun k _ => congrArg E (lift_key s gq h k)

include hQ hK in
theorem expos_apply (gq : Fin 64) (h : Fin 4) (gk : Fin 64) :
    expos (logits Qc Kbd) (ix4 s gq h gk) = expo qf kf h gq gk := by
  unfold expos expo rowMax
  show Ideal.exp (logits Qc Kbd (ix4 s gq h gk) - rmax (logits Qc Kbd) (ix4 s gq h gk)) = _
  rw [rmax_apply, logits_apply Qc Kbd s qf kf hQ hK]
  refine congrArg (fun m => Ideal.exp (logit qf kf h gq gk - max negInf m)) ?_
  exact congrArg (fun f => Finset.fold max negInf f (Finset.univ : Finset (Fin 64)))
    (funext fun k => logits_apply Qc Kbd s qf kf hQ hK gq h k)

include hQ hK in
/-- The chunk's softmax is the per-head attention weight. -/
theorem smax_apply (gq : Fin 64) (h : Fin 4) (gk : Fin 64) :
    smax Qc Kbd (ix4 s gq h gk) = attn qf kf h gq gk := by
  unfold smax attn denom
  rw [divf_apply, rsum_apply, expos_apply Qc Kbd s qf kf hQ hK]
  exact congrArg (Ideal.div _) (Finset.sum_congr rfl fun k _ => expos_apply Qc Kbd s qf kf hQ hK gq h k)

include hQ hK hV in
/-- The packed contraction over all 256 packed keys keeps band `c / 16`: the other bands' entries of the packed value
    operand at column `c` are zero. -/
theorem xpay_apply (g c : Fin 64) :
    xpay Qc Kbd Vbd (ix4 (0 : Fin 1) g c s) = xval qf kf vf g c := by
  unfold xpay
  refine (shapeCast_apply _ shapeCasts_S64x64x64_S1x64x64x64 (ix4 (0 : Fin 1) g c s) (ix3 g c s) (by
    rw [Shape.rowMajor_val_three, Shape.rowMajor_val_four]
    show (g.val * 64 + c.val) * 64 + s.val = ((0 * 64 + g.val) * 64 + c.val) * 64 + s.val
    omega)).trans ?_
  refine (transpose_apply [1, 2, 0] _ transposes_S64x64x64_p1_2_0_S64x64x64 (ix3 g c s) (ix3 s g c) (fun b => by
    match b with
    | ⟨0, _⟩ => rfl
    | ⟨1, _⟩ => rfl
    | ⟨2, _⟩ => rfl)).trans ?_
  obtain ⟨h, d, rfl⟩ : ∃ (h : Fin 4) (d : Fin 16), c = hcol h d :=
    ⟨headOf c, ⟨c.val % 16, Nat.mod_lt _ (by decide)⟩,
      Fin.ext (by rw [hcol_val, headOf_val]; show c.val = c.val / 16 * 16 + c.val % 16; omega)⟩
  rw [matmulAV_apply, sum_kcol]
  unfold xval
  rw [headOf_hcol, Finset.sum_eq_single h]
  · refine Finset.sum_congr rfl fun gk _ => ?_
    rw [merge_apply, smax_apply Qc Kbd s qf kf hQ hK, hV, if_pos rfl]
  · intro h' _ hne
    refine Finset.sum_eq_zero fun gk _ => ?_
    rw [hV, if_neg hne, mul_zero]
  · intro hh; exact absurd (Finset.mem_univ _) hh

include hQ hK in
/-- The weights averaged over the heads. -/
theorem apay_apply (gq gk : Fin 64) :
    apay Qc Kbd (ix4 (0 : Fin 1) gq gk s) = aval qf kf gq gk := by
  unfold apay
  refine (shapeCast_apply _ shapeCasts_S64x64x64_S1x64x64x64 (ix4 (0 : Fin 1) gq gk s) (ix3 gq gk s) (by
    rw [Shape.rowMajor_val_three, Shape.rowMajor_val_four]
    show (gq.val * 64 + gk.val) * 64 + s.val = ((0 * 64 + gq.val) * 64 + gk.val) * 64 + s.val
    omega)).trans ?_
  refine (transpose_apply [1, 2, 0] _ transposes_S64x64x64_p1_2_0_S64x64x64 (ix3 gq gk s) (ix3 s gq gk) (fun b => by
    match b with
    | ⟨0, _⟩ => rfl
    | ⟨1, _⟩ => rfl
    | ⟨2, _⟩ => rfl)).trans ?_
  rw [divf_apply, broadcast_apply]
  unfold aval
  refine congrArg (fun z => Ideal.div z four) ?_
  refine (Ideal.multiReduction_add_single (smax Qc Kbd) 0x00000000#32 reduces_S64x64x4x64_S64x64x64 (.inl rfl) rfl (ix3 s gq gk)).trans ?_
  exact Finset.sum_congr rfl fun k _ => (congrArg (smax Qc Kbd) (lift_head s gq gk k)).trans
    (smax_apply Qc Kbd s qf kf hQ hK gq _ gk)

end AtTimeStep

end Cert.Attn.Core

end
-- ==== Proof.KernelLayout.lean ====
/-
  The operands the kernel feeds its two matrix products, read entry by entry.

  A loaded sub-block is indexed (0, g, c, s): group g, hidden column c, local time step s. The kernel first drops
  the unit axis and moves time to the front (entry (s, g, c) of the result is entry (0, g, c, s) of the block).
  For the four heads it then builds ONE block-diagonal operand per matrix product:

    keys    K_bd[s, 16h' + d, 64h + g] = k[0, g, 16h + d, s]   if h' = h, and 0 otherwise
    values  V_bd[s, 64h' + g, 16h + d] = v[0, g, 16h + d, s]   if h' = h, and 0 otherwise

  Each is a concatenation of four bands (one per head); a band is a 16-column slice of the time-first array
  (transposed, for the keys) padded by zero arrays on both sides up to the full width. The proofs read a
  concatenation at an index by naming the piece the index falls in, and split only on the two heads.
-/
import proofs.«121823_j31353261260858_2_alg».proof.Proof.Gen.KernelIdeal.Skeleton
import proofs.«121823_j31353261260858_2_alg».proof.Proof.Spec
import Idealize.ShloMosaic.Lib.ValueLayout
import Idealize.ShloMosaic.PureOps.Ideal.Laws

noncomputable section

namespace Cert.Attn.Layout

open Idealize.ShloMosaic Idealize.ShloMosaic.ValueIdx
open Cert.KernelIdeal Cert.KernelIdeal.Gen

/-! ## Reading a slice and a concatenation of rank-3 arrays at coordinates -/

section Read
variable {α : Type}

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Rank-3 arrays laid end to end along the LAST axis, read at (a, b, c): piece k, which starts at column pre,
    at (a, b, c') where c = pre + c'. -/
theorem cat3_axis2_apply {n0 n1 n2 m : Nat} (xs : List ((s : Shape) × (s.Idx → α)))
    (H : Shape.Concatenates (xs.map (·.1)) ⟨3, ![n0, n1, n2]⟩ 2) (k : Nat) (hk : k < xs.length)
    (x₁ : (⟨3, ![n0, n1, m]⟩ : Shape).Idx → α) (hxk : xs[k] = ⟨⟨3, ![n0, n1, m]⟩, x₁⟩) (pre : Nat)
    (hpre : (((xs.take k).map (·.1)).map fun s : Shape =>
      if h : s.rank = (⟨3, ![n0, n1, n2]⟩ : Shape).rank then s.size ((2 : Fin (⟨3, ![n0, n1, n2]⟩ : Shape).rank).cast h.symm) else 0).sum = pre)
    (a : Fin n0) (b : Fin n1) (c : Fin n2) (c' : Fin m) (hc : pre + c'.val = c.val) :
    concatenate ⟨3, ![n0, n1, n2]⟩ 2 xs H (ix3 a b c) = x₁ (ix3 a b c') :=
  concatenate_apply_piece 2 xs H (ix3 a b c) k hk _ x₁ hxk rfl pre hpre (ix3 a b c')
    (fun e => match e with
      | ⟨0, _⟩ => fun _ => rfl
      | ⟨1, _⟩ => fun _ => rfl
      | ⟨2, _⟩ => fun he => absurd rfl he) hc

/-- Rank-3 arrays laid end to end along the MIDDLE axis, read at (a, b, c): piece k, which starts at row pre,
    at (a, b', c) where b = pre + b'. -/
theorem cat3_axis1_apply {n0 n1 n2 m : Nat} (xs : List ((s : Shape) × (s.Idx → α)))
    (H : Shape.Concatenates (xs.map (·.1)) ⟨3, ![n0, n1, n2]⟩ 1) (k : Nat) (hk : k < xs.length)
    (x₁ : (⟨3, ![n0, m, n2]⟩ : Shape).Idx → α) (hxk : xs[k] = ⟨⟨3, ![n0, m, n2]⟩, x₁⟩) (pre : Nat)
    (hpre : (((xs.take k).map (·.1)).map fun s : Shape =>
      if h : s.rank = (⟨3, ![n0, n1, n2]⟩ : Shape).rank then s.size ((1 : Fin (⟨3, ![n0, n1, n2]⟩ : Shape).rank).cast h.symm) else 0).sum = pre)
    (a : Fin n0) (b : Fin n1) (c : Fin n2) (b' : Fin m) (hb : pre + b'.val = b.val) :
    concatenate ⟨3, ![n0, n1, n2]⟩ 1 xs H (ix3 a b c) = x₁ (ix3 a b' c) :=
  concatenate_apply_piece 1 xs H (ix3 a b c) k hk _ x₁ hxk rfl pre hpre (ix3 a b' c)
    (fun e => match e with
      | ⟨0, _⟩ => fun _ => rfl
      | ⟨1, _⟩ => fun he => absurd rfl he
      | ⟨2, _⟩ => fun _ => rfl) hb

end Read

/-! ## Time to the front -/

/-- The unit axis dropped and time moved to the front. -/
def timeFirst (x : Vec Ideal S1x64x64x64 .f32) : FVec Ideal S64x64x64 .f32 :=
  transpose S64x64x64 [2, 0, 1] (shapeCast S64x64x64 x shapeCasts_S1x64x64x64_S64x64x64)
    transposes_S64x64x64_p2_0_1_S64x64x64

/-- Entry (s, g, c) of the time-first array is entry (0, g, c, s) of the block. -/
theorem timeFirst_apply (x : Vec Ideal S1x64x64x64 .f32) (s g c : Fin 64) :
    timeFirst x (ix3 s g c) = x (ix4 (0 : Fin 1) g c s) := by
  unfold timeFirst
  refine (transpose_apply _ _ _ (ix3 s g c) (ix3 g c s)
    (fun b => match b with | ⟨0, _⟩ => rfl | ⟨1, _⟩ => rfl | ⟨2, _⟩ => rfl)).trans ?_
  exact shapeCast_1abc_abc_apply x _ g c s

theorem pay4_eq (x : Vec Ideal S1x64x64x64 .f32) : Gen.k0_pay4 (F := Ideal) x = timeFirst x := rfl
theorem pay5_eq (x : Vec Ideal S1x64x64x64 .f32) : Gen.k0_pay5 (F := Ideal) x = timeFirst x := rfl
theorem pay6_eq (x : Vec Ideal S1x64x64x64 .f32) : Gen.k0_pay6 (F := Ideal) x = timeFirst x := rfl
theorem pay17_eq (x : Vec Ideal S1x64x64x64 .f32) : Gen.k0_pay17 (F := Ideal) x = timeFirst x := rfl
theorem pay18_eq (x : Vec Ideal S1x64x64x64 .f32) : Gen.k0_pay18 (F := Ideal) x = timeFirst x := rfl
theorem pay19_eq (x : Vec Ideal S1x64x64x64 .f32) : Gen.k0_pay19 (F := Ideal) x = timeFirst x := rfl

theorem qc_apply (x : Vec Ideal S1x64x64x64 .f32) (s g c : Fin 64) :
    Gen.k0_pay4 (F := Ideal) x (ix3 s g c) = x (ix4 (0 : Fin 1) g c s) := timeFirst_apply x s g c
theorem pay5_apply (x : Vec Ideal S1x64x64x64 .f32) (s g c : Fin 64) :
    Gen.k0_pay5 (F := Ideal) x (ix3 s g c) = x (ix4 (0 : Fin 1) g c s) := timeFirst_apply x s g c
theorem pay6_apply (x : Vec Ideal S1x64x64x64 .f32) (s g c : Fin 64) :
    Gen.k0_pay6 (F := Ideal) x (ix3 s g c) = x (ix4 (0 : Fin 1) g c s) := timeFirst_apply x s g c
theorem pay17_apply (x : Vec Ideal S1x64x64x64 .f32) (s g c : Fin 64) :
    Gen.k0_pay17 (F := Ideal) x (ix3 s g c) = x (ix4 (0 : Fin 1) g c s) := timeFirst_apply x s g c
theorem pay18_apply (x : Vec Ideal S1x64x64x64 .f32) (s g c : Fin 64) :
    Gen.k0_pay18 (F := Ideal) x (ix3 s g c) = x (ix4 (0 : Fin 1) g c s) := timeFirst_apply x s g c
theorem pay19_apply (x : Vec Ideal S1x64x64x64 .f32) (s g c : Fin 64) :
    Gen.k0_pay19 (F := Ideal) x (ix3 s g c) = x (ix4 (0 : Fin 1) g c s) := timeFirst_apply x s g c

/-! ## Zero padding -/

/-- The zero array of a shape, as the kernel writes it. -/
abbrev zeros (S : Shape) : FVec Ideal S .f32 := broadcast S (Scalar.ofBits .f32 0x00000000#32)

theorem zeros_apply (S : Shape) (i : S.Idx) : zeros S i = 0 := Ideal.ofBits_zero_f32

/-- Two "value if the heads agree, else zero" expressions are equal when the values are, under that agreement. -/
theorem ite_zero_congr {c : Prop} [Decidable c] {a b : EReal} (hab : c → a = b) :
    (if c then a else 0) = if c then b else 0 := by
  by_cases hc : c
  · rw [if_pos hc, if_pos hc]; exact hab hc
  · rw [if_neg hc, if_neg hc]

/-! ## The key bands: a 64-column block inside 256 columns, zero elsewhere -/

/-- Head 0's key band — a 64-column block at columns 0…63, zero elsewhere — read in head h's columns. -/
theorem kband0_apply (y : FVec Ideal S64x16x64 .f32) (s : Fin 64) (d : Fin 16) (g : Fin 64) (h : Fin 4) :
    concatenate S64x16x256 2 [⟨S64x16x64, y⟩, ⟨S64x16x192, zeros S64x16x192⟩]
      concatenates_S64x16x64_S64x16x192_S64x16x256_d2 (ix3 s d (kcol h g))
      = if (0 : Fin 4) = h then y (ix3 s d g) else 0 := by
  match h with
  | 0 =>
    refine Eq.trans (cat3_axis2_apply _ _ 0 (by simp) y rfl 0 rfl s d _ g (by show 0 + g.val = 0 * 64 + g.val; omega)) ?_
    exact (if_pos rfl).symm
  | 1 =>
    refine Eq.trans (cat3_axis2_apply _ _ 1 (by simp) (zeros S64x16x192) rfl 64 rfl s d _ ⟨0 + g.val, by omega⟩ (by show 64 + (0 + g.val) = 1 * 64 + g.val; omega)) ?_
    exact (zeros_apply _ _).trans (if_neg (by decide)).symm
  | 2 =>
    refine Eq.trans (cat3_axis2_apply _ _ 1 (by simp) (zeros S64x16x192) rfl 64 rfl s d _ ⟨64 + g.val, by omega⟩ (by show 64 + (64 + g.val) = 2 * 64 + g.val; omega)) ?_
    exact (zeros_apply _ _).trans (if_neg (by decide)).symm
  | 3 =>
    refine Eq.trans (cat3_axis2_apply _ _ 1 (by simp) (zeros S64x16x192) rfl 64 rfl s d _ ⟨128 + g.val, by omega⟩ (by show 64 + (128 + g.val) = 3 * 64 + g.val; omega)) ?_
    exact (zeros_apply _ _).trans (if_neg (by decide)).symm

/-- Head 1's key band — a 64-column block at columns 64…127, zero elsewhere — read in head h's columns. -/
theorem kband1_apply (y : FVec Ideal S64x16x64 .f32) (s : Fin 64) (d : Fin 16) (g : Fin 64) (h : Fin 4) :
    concatenate S64x16x256 2 [⟨S64x16x64, zeros S64x16x64⟩, ⟨S64x16x64, y⟩, ⟨S64x16x128, zeros S64x16x128⟩]
      concatenates_S64x16x64_S64x16x64_S64x16x128_S64x16x256_d2 (ix3 s d (kcol h g))
      = if (1 : Fin 4) = h then y (ix3 s d g) else 0 := by
  match h with
  | 0 =>
    refine Eq.trans (cat3_axis2_apply _ _ 0 (by simp) (zeros S64x16x64) rfl 0 rfl s d _ ⟨0 + g.val, by omega⟩ (by show 0 + (0 + g.val) = 0 * 64 + g.val; omega)) ?_
    exact (zeros_apply _ _).trans (if_neg (by decide)).symm
  | 1 =>
    refine Eq.trans (cat3_axis2_apply _ _ 1 (by simp) y rfl 64 rfl s d _ g (by show 64 + g.val = 1 * 64 + g.val; omega)) ?_
    exact (if_pos rfl).symm
  | 2 =>
    refine Eq.trans (cat3_axis2_apply _ _ 2 (by simp) (zeros S64x16x128) rfl 128 rfl s d _ ⟨0 + g.val, by omega⟩ (by show 128 + (0 + g.val) = 2 * 64 + g.val; omega)) ?_
    exact (zeros_apply _ _).trans (if_neg (by decide)).symm
  | 3 =>
    refine Eq.trans (cat3_axis2_apply _ _ 2 (by simp) (zeros S64x16x128) rfl 128 rfl s d _ ⟨64 + g.val, by omega⟩ (by show 128 + (64 + g.val) = 3 * 64 + g.val; omega)) ?_
    exact (zeros_apply _ _).trans (if_neg (by decide)).symm

/-- Head 2's key band — a 64-column block at columns 128…191, zero elsewhere — read in head h's columns. -/
theorem kband2_apply (y : FVec Ideal S64x16x64 .f32) (s : Fin 64) (d : Fin 16) (g : Fin 64) (h : Fin 4) :
    concatenate S64x16x256 2 [⟨S64x16x128, zeros S64x16x128⟩, ⟨S64x16x64, y⟩, ⟨S64x16x64, zeros S64x16x64⟩]
      concatenates_S64x16x128_S64x16x64_S64x16x64_S64x16x256_d2 (ix3 s d (kcol h g))
      = if (2 : Fin 4) = h then y (ix3 s d g) else 0 := by
  match h with
  | 0 =>
    refine Eq.trans (cat3_axis2_apply _ _ 0 (by simp) (zeros S64x16x128) rfl 0 rfl s d _ ⟨0 + g.val, by omega⟩ (by show 0 + (0 + g.val) = 0 * 64 + g.val; omega)) ?_
    exact (zeros_apply _ _).trans (if_neg (by decide)).symm
  | 1 =>
    refine Eq.trans (cat3_axis2_apply _ _ 0 (by simp) (zeros S64x16x128) rfl 0 rfl s d _ ⟨64 + g.val, by omega⟩ (by show 0 + (64 + g.val) = 1 * 64 + g.val; omega)) ?_
    exact (zeros_apply _ _).trans (if_neg (by decide)).symm
  | 2 =>
    refine Eq.trans (cat3_axis2_apply _ _ 1 (by simp) y rfl 128 rfl s d _ g (by show 128 + g.val = 2 * 64 + g.val; omega)) ?_
    exact (if_pos rfl).symm
  | 3 =>
    refine Eq.trans (cat3_axis2_apply _ _ 2 (by simp) (zeros S64x16x64) rfl 192 rfl s d _ ⟨0 + g.val, by omega⟩ (by show 192 + (0 + g.val) = 3 * 64 + g.val; omega)) ?_
    exact (zeros_apply _ _).trans (if_neg (by decide)).symm

/-- Head 3's key band — a 64-column block at columns 192…255, zero elsewhere — read in head h's columns. -/
theorem kband3_apply (y : FVec Ideal S64x16x64 .f32) (s : Fin 64) (d : Fin 16) (g : Fin 64) (h : Fin 4) :
    concatenate S64x16x256 2 [⟨S64x16x192, zeros S64x16x192⟩, ⟨S64x16x64, y⟩]
      concatenates_S64x16x192_S64x16x64_S64x16x256_d2 (ix3 s d (kcol h g))
      = if (3 : Fin 4) = h then y (ix3 s d g) else 0 := by
  match h with
  | 0 =>
    refine Eq.trans (cat3_axis2_apply _ _ 0 (by simp) (zeros S64x16x192) rfl 0 rfl s d _ ⟨0 + g.val, by omega⟩ (by show 0 + (0 + g.val) = 0 * 64 + g.val; omega)) ?_
    exact (zeros_apply _ _).trans (if_neg (by decide)).symm
  | 1 =>
    refine Eq.trans (cat3_axis2_apply _ _ 0 (by simp) (zeros S64x16x192) rfl 0 rfl s d _ ⟨64 + g.val, by omega⟩ (by show 0 + (64 + g.val) = 1 * 64 + g.val; omega)) ?_
    exact (zeros_apply _ _).trans (if_neg (by decide)).symm
  | 2 =>
    refine Eq.trans (cat3_axis2_apply _ _ 0 (by simp) (zeros S64x16x192) rfl 0 rfl s d _ ⟨128 + g.val, by omega⟩ (by show 0 + (128 + g.val) = 2 * 64 + g.val; omega)) ?_
    exact (zeros_apply _ _).trans (if_neg (by decide)).symm
  | 3 =>
    refine Eq.trans (cat3_axis2_apply _ _ 1 (by simp) y rfl 192 rfl s d _ g (by show 192 + g.val = 3 * 64 + g.val; omega)) ?_
    exact (if_pos rfl).symm

/-! ## The value bands: a 64-row block inside 256 rows, zero elsewhere -/

/-- Head 0's value band — a 64-row block at rows 0…63, zero elsewhere — read in head h's rows. -/
theorem vband0_apply (y : FVec Ideal S64x64x16 .f32) (s : Fin 64) (d : Fin 16) (g : Fin 64) (h : Fin 4) :
    concatenate S64x256x16 1 [⟨S64x64x16, y⟩, ⟨S64x192x16, zeros S64x192x16⟩]
      concatenates_S64x64x16_S64x192x16_S64x256x16_d1 (ix3 s (kcol h g) d)
      = if h = (0 : Fin 4) then y (ix3 s g d) else 0 := by
  match h with
  | 0 =>
    refine Eq.trans (cat3_axis1_apply _ _ 0 (by simp) y rfl 0 rfl s _ d g (by show 0 + g.val = 0 * 64 + g.val; omega)) ?_
    exact (if_pos rfl).symm
  | 1 =>
    refine Eq.trans (cat3_axis1_apply _ _ 1 (by simp) (zeros S64x192x16) rfl 64 rfl s _ d ⟨0 + g.val, by omega⟩ (by show 64 + (0 + g.val) = 1 * 64 + g.val; omega)) ?_
    exact (zeros_apply _ _).trans (if_neg (by decide)).symm
  | 2 =>
    refine Eq.trans (cat3_axis1_apply _ _ 1 (by simp) (zeros S64x192x16) rfl 64 rfl s _ d ⟨64 + g.val, by omega⟩ (by show 64 + (64 + g.val) = 2 * 64 + g.val; omega)) ?_
    exact (zeros_apply _ _).trans (if_neg (by decide)).symm
  | 3 =>
    refine Eq.trans (cat3_axis1_apply _ _ 1 (by simp) (zeros S64x192x16) rfl 64 rfl s _ d ⟨128 + g.val, by omega⟩ (by show 64 + (128 + g.val) = 3 * 64 + g.val; omega)) ?_
    exact (zeros_apply _ _).trans (if_neg (by decide)).symm

/-- Head 1's value band — a 64-row block at rows 64…127, zero elsewhere — read in head h's rows. -/
theorem vband1_apply (y : FVec Ideal S64x64x16 .f32) (s : Fin 64) (d : Fin 16) (g : Fin 64) (h : Fin 4) :
    concatenate S64x256x16 1 [⟨S64x64x16, zeros S64x64x16⟩, ⟨S64x64x16, y⟩, ⟨S64x128x16, zeros S64x128x16⟩]
      concatenates_S64x64x16_S64x64x16_S64x128x16_S64x256x16_d1 (ix3 s (kcol h g) d)
      = if h = (1 : Fin 4) then y (ix3 s g d) else 0 := by
  match h with
  | 0 =>
    refine Eq.trans (cat3_axis1_apply _ _ 0 (by simp) (zeros S64x64x16) rfl 0 rfl s _ d ⟨0 + g.val, by omega⟩ (by show 0 + (0 + g.val) = 0 * 64 + g.val; omega)) ?_
    exact (zeros_apply _ _).trans (if_neg (by decide)).symm
  | 1 =>
    refine Eq.trans (cat3_axis1_apply _ _ 1 (by simp) y rfl 64 rfl s _ d g (by show 64 + g.val = 1 * 64 + g.val; omega)) ?_
    exact (if_pos rfl).symm
  | 2 =>
    refine Eq.trans (cat3_axis1_apply _ _ 2 (by simp) (zeros S64x128x16) rfl 128 rfl s _ d ⟨0 + g.val, by omega⟩ (by show 128 + (0 + g.val) = 2 * 64 + g.val; omega)) ?_
    exact (zeros_apply _ _).trans (if_neg (by decide)).symm
  | 3 =>
    refine Eq.trans (cat3_axis1_apply _ _ 2 (by simp) (zeros S64x128x16) rfl 128 rfl s _ d ⟨64 + g.val, by omega⟩ (by show 128 + (64 + g.val) = 3 * 64 + g.val; omega)) ?_
    exact (zeros_apply _ _).trans (if_neg (by decide)).symm

/-- Head 2's value band — a 64-row block at rows 128…191, zero elsewhere — read in head h's rows. -/
theorem vband2_apply (y : FVec Ideal S64x64x16 .f32) (s : Fin 64) (d : Fin 16) (g : Fin 64) (h : Fin 4) :
    concatenate S64x256x16 1 [⟨S64x128x16, zeros S64x128x16⟩, ⟨S64x64x16, y⟩, ⟨S64x64x16, zeros S64x64x16⟩]
      concatenates_S64x128x16_S64x64x16_S64x64x16_S64x256x16_d1 (ix3 s (kcol h g) d)
      = if h = (2 : Fin 4) then y (ix3 s g d) else 0 := by
  match h with
  | 0 =>
    refine Eq.trans (cat3_axis1_apply _ _ 0 (by simp) (zeros S64x128x16) rfl 0 rfl s _ d ⟨0 + g.val, by omega⟩ (by show 0 + (0 + g.val) = 0 * 64 + g.val; omega)) ?_
    exact (zeros_apply _ _).trans (if_neg (by decide)).symm
  | 1 =>
    refine Eq.trans (cat3_axis1_apply _ _ 0 (by simp) (zeros S64x128x16) rfl 0 rfl s _ d ⟨64 + g.val, by omega⟩ (by show 0 + (64 + g.val) = 1 * 64 + g.val; omega)) ?_
    exact (zeros_apply _ _).trans (if_neg (by decide)).symm
  | 2 =>
    refine Eq.trans (cat3_axis1_apply _ _ 1 (by simp) y rfl 128 rfl s _ d g (by show 128 + g.val = 2 * 64 + g.val; omega)) ?_
    exact (if_pos rfl).symm
  | 3 =>
    refine Eq.trans (cat3_axis1_apply _ _ 2 (by simp) (zeros S64x64x16) rfl 192 rfl s _ d ⟨0 + g.val, by omega⟩ (by show 192 + (0 + g.val) = 3 * 64 + g.val; omega)) ?_
    exact (zeros_apply _ _).trans (if_neg (by decide)).symm

/-- Head 3's value band — a 64-row block at rows 192…255, zero elsewhere — read in head h's rows. -/
theorem vband3_apply (y : FVec Ideal S64x64x16 .f32) (s : Fin 64) (d : Fin 16) (g : Fin 64) (h : Fin 4) :
    concatenate S64x256x16 1 [⟨S64x192x16, zeros S64x192x16⟩, ⟨S64x64x16, y⟩]
      concatenates_S64x192x16_S64x64x16_S64x256x16_d1 (ix3 s (kcol h g) d)
      = if h = (3 : Fin 4) then y (ix3 s g d) else 0 := by
  match h with
  | 0 =>
    refine Eq.trans (cat3_axis1_apply _ _ 0 (by simp) (zeros S64x192x16) rfl 0 rfl s _ d ⟨0 + g.val, by omega⟩ (by show 0 + (0 + g.val) = 0 * 64 + g.val; omega)) ?_
    exact (zeros_apply _ _).trans (if_neg (by decide)).symm
  | 1 =>
    refine Eq.trans (cat3_axis1_apply _ _ 0 (by simp) (zeros S64x192x16) rfl 0 rfl s _ d ⟨64 + g.val, by omega⟩ (by show 0 + (64 + g.val) = 1 * 64 + g.val; omega)) ?_
    exact (zeros_apply _ _).trans (if_neg (by decide)).symm
  | 2 =>
    refine Eq.trans (cat3_axis1_apply _ _ 0 (by simp) (zeros S64x192x16) rfl 0 rfl s _ d ⟨128 + g.val, by omega⟩ (by show 0 + (128 + g.val) = 2 * 64 + g.val; omega)) ?_
    exact (zeros_apply _ _).trans (if_neg (by decide)).symm
  | 3 =>
    refine Eq.trans (cat3_axis1_apply _ _ 1 (by simp) y rfl 192 rfl s _ d g (by show 192 + g.val = 3 * 64 + g.val; omega)) ?_
    exact (if_pos rfl).symm

/-! ## One head's 16 columns of the time-first array -/

/-- Columns o … o+15 of the time-first array with its last two axes swapped: entry (s, d, g). -/
def kslab (o : Nat) (hs : S64x64x64.Slices ![0, 0, o] S64x64x16) (kt : FVec Ideal S64x64x64 .f32) : FVec Ideal S64x16x64 .f32 :=
  transpose S64x16x64 [0, 2, 1] (extractStridedSlice S64x64x16 ![0, 0, o] kt hs) transposes_S64x64x16_p0_2_1_S64x16x64

/-- Entry (s, d, g) of that slab is entry (s, g, o + d) of the time-first array. -/
theorem kslab_apply (o : Nat) (hs : S64x64x64.Slices ![0, 0, o] S64x64x16) (kt : FVec Ideal S64x64x64 .f32)
    (s : Fin 64) (d : Fin 16) (g : Fin 64) (c : Fin 64) (hc : c.val = o + d.val) :
    kslab o hs kt (ix3 s d g) = kt (ix3 s g c) := by
  unfold kslab
  refine Eq.trans (transpose_ix3_021_apply _ _ s d g) ?_
  exact slice3_axis2_apply o kt hs s g d c hc

/-- Columns o … o+15 of the time-first array: entry (s, g, d) is entry (s, g, o + d). -/
def vslab (o : Nat) (hs : S64x64x64.Slices ![0, 0, o] S64x64x16) (vt : FVec Ideal S64x64x64 .f32) : FVec Ideal S64x64x16 .f32 :=
  extractStridedSlice S64x64x16 ![0, 0, o] vt hs

theorem vslab_apply (o : Nat) (hs : S64x64x64.Slices ![0, 0, o] S64x64x16) (vt : FVec Ideal S64x64x64 .f32)
    (s : Fin 64) (g : Fin 64) (d : Fin 16) (c : Fin 64) (hc : c.val = o + d.val) :
    vslab o hs vt (ix3 s g d) = vt (ix3 s g c) :=
  slice3_axis2_apply o vt hs s g d c hc

/-! ## The packed key operand -/

/-- The block-diagonal key operand built from the time-first key array: head h' occupies rows 16h' … 16h'+15 and
    is non-zero only in columns 64h' … 64h'+63. -/
def kbd (kt : FVec Ideal S64x64x64 .f32) : FVec Ideal S64x64x256 .f32 :=
  concatenate S64x64x256 1 [
    ⟨S64x16x256, concatenate S64x16x256 2 [⟨S64x16x64, kslab 0 slices_S64x64x64_o0_0_0_S64x64x16 kt⟩, ⟨S64x16x192, zeros S64x16x192⟩]
      concatenates_S64x16x64_S64x16x192_S64x16x256_d2⟩,
    ⟨S64x16x256, concatenate S64x16x256 2 [⟨S64x16x64, zeros S64x16x64⟩, ⟨S64x16x64, kslab 16 slices_S64x64x64_o0_0_16_S64x64x16 kt⟩, ⟨S64x16x128, zeros S64x16x128⟩]
      concatenates_S64x16x64_S64x16x64_S64x16x128_S64x16x256_d2⟩,
    ⟨S64x16x256, concatenate S64x16x256 2 [⟨S64x16x128, zeros S64x16x128⟩, ⟨S64x16x64, kslab 32 slices_S64x64x64_o0_0_32_S64x64x16 kt⟩, ⟨S64x16x64, zeros S64x16x64⟩]
      concatenates_S64x16x128_S64x16x64_S64x16x64_S64x16x256_d2⟩,
    ⟨S64x16x256, concatenate S64x16x256 2 [⟨S64x16x192, zeros S64x16x192⟩, ⟨S64x16x64, kslab 48 slices_S64x64x64_o0_0_48_S64x64x16 kt⟩]
      concatenates_S64x16x192_S64x16x64_S64x16x256_d2⟩]
    concatenates_S64x16x256_S64x16x256_S64x16x256_S64x16x256_S64x64x256_d1

/-- K_bd[s, 16h' + d, 64h + g] = kt[s, g, 16h + d] if h' = h, and 0 otherwise. -/
theorem kbd_apply (kt : FVec Ideal S64x64x64 .f32) (s : Fin 64) (h' : Fin 4) (d : Fin 16) (h : Fin 4) (g : Fin 64) :
    kbd kt (ix3 s (hcol h' d) (kcol h g)) = if h' = h then kt (ix3 s g (hcol h d)) else 0 := by
  unfold kbd
  match h' with
  | ⟨0, _⟩ =>
    refine Eq.trans (cat3_axis1_apply _ _ 0 (by simp) _ rfl 0 rfl s _ (kcol h g) d
      (by show 0 + d.val = 0 * 16 + d.val; omega)) ?_
    refine Eq.trans (kband0_apply _ s d g h) ?_
    exact ite_zero_congr fun e => by
      subst e
      exact kslab_apply 0 _ kt s d g _ (by show 0 * 16 + d.val = 0 + d.val; omega)
  | ⟨1, _⟩ =>
    refine Eq.trans (cat3_axis1_apply _ _ 1 (by simp) _ rfl 16 rfl s _ (kcol h g) d
      (by show 16 + d.val = 1 * 16 + d.val; omega)) ?_
    refine Eq.trans (kband1_apply _ s d g h) ?_
    exact ite_zero_congr fun e => by
      subst e
      exact kslab_apply 16 _ kt s d g _ (by show 1 * 16 + d.val = 16 + d.val; omega)
  | ⟨2, _⟩ =>
    refine Eq.trans (cat3_axis1_apply _ _ 2 (by simp) _ rfl 32 rfl s _ (kcol h g) d
      (by show 32 + d.val = 2 * 16 + d.val; omega)) ?_
    refine Eq.trans (kband2_apply _ s d g h) ?_
    exact ite_zero_congr fun e => by
      subst e
      exact kslab_apply 32 _ kt s d g _ (by show 2 * 16 + d.val = 32 + d.val; omega)
  | ⟨3, _⟩ =>
    refine Eq.trans (cat3_axis1_apply _ _ 3 (by simp) _ rfl 48 rfl s _ (kcol h g) d
      (by show 48 + d.val = 3 * 16 + d.val; omega)) ?_
    refine Eq.trans (kband3_apply _ s d g h) ?_
    exact ite_zero_congr fun e => by
      subst e
      exact kslab_apply 48 _ kt s d g _ (by show 3 * 16 + d.val = 48 + d.val; omega)

/-! ## The packed value operand -/

/-- The block-diagonal value operand built from the time-first value array: head h occupies columns 16h … 16h+15 and
    is non-zero only in rows 64h … 64h+63. -/
def vbd (vt : FVec Ideal S64x64x64 .f32) : FVec Ideal S64x256x64 .f32 :=
  concatenate S64x256x64 2 [
    ⟨S64x256x16, concatenate S64x256x16 1 [⟨S64x64x16, vslab 0 slices_S64x64x64_o0_0_0_S64x64x16 vt⟩, ⟨S64x192x16, zeros S64x192x16⟩]
      concatenates_S64x64x16_S64x192x16_S64x256x16_d1⟩,
    ⟨S64x256x16, concatenate S64x256x16 1 [⟨S64x64x16, zeros S64x64x16⟩, ⟨S64x64x16, vslab 16 slices_S64x64x64_o0_0_16_S64x64x16 vt⟩, ⟨S64x128x16, zeros S64x128x16⟩]
      concatenates_S64x64x16_S64x64x16_S64x128x16_S64x256x16_d1⟩,
    ⟨S64x256x16, concatenate S64x256x16 1 [⟨S64x128x16, zeros S64x128x16⟩, ⟨S64x64x16, vslab 32 slices_S64x64x64_o0_0_32_S64x64x16 vt⟩, ⟨S64x64x16, zeros S64x64x16⟩]
      concatenates_S64x128x16_S64x64x16_S64x64x16_S64x256x16_d1⟩,
    ⟨S64x256x16, concatenate S64x256x16 1 [⟨S64x192x16, zeros S64x192x16⟩, ⟨S64x64x16, vslab 48 slices_S64x64x64_o0_0_48_S64x64x16 vt⟩]
      concatenates_S64x192x16_S64x64x16_S64x256x16_d1⟩]
    concatenates_S64x256x16_S64x256x16_S64x256x16_S64x256x16_S64x256x64_d2

/-- V_bd[s, 64h' + g, 16h + d] = vt[s, g, 16h + d] if h' = h, and 0 otherwise. -/
theorem vbd_apply (vt : FVec Ideal S64x64x64 .f32) (s : Fin 64) (h' : Fin 4) (g : Fin 64) (h : Fin 4) (d : Fin 16) :
    vbd vt (ix3 s (kcol h' g) (hcol h d)) = if h' = h then vt (ix3 s g (hcol h d)) else 0 := by
  unfold vbd
  match h with
  | ⟨0, _⟩ =>
    refine Eq.trans (cat3_axis2_apply _ _ 0 (by simp) _ rfl 0 rfl s (kcol h' g) _ d
      (by show 0 + d.val = 0 * 16 + d.val; omega)) ?_
    refine Eq.trans (vband0_apply _ s d g h') ?_
    exact ite_zero_congr fun _ =>
      vslab_apply 0 _ vt s g d _ (by show 0 * 16 + d.val = 0 + d.val; omega)
  | ⟨1, _⟩ =>
    refine Eq.trans (cat3_axis2_apply _ _ 1 (by simp) _ rfl 16 rfl s (kcol h' g) _ d
      (by show 16 + d.val = 1 * 16 + d.val; omega)) ?_
    refine Eq.trans (vband1_apply _ s d g h') ?_
    exact ite_zero_congr fun _ =>
      vslab_apply 16 _ vt s g d _ (by show 1 * 16 + d.val = 16 + d.val; omega)
  | ⟨2, _⟩ =>
    refine Eq.trans (cat3_axis2_apply _ _ 2 (by simp) _ rfl 32 rfl s (kcol h' g) _ d
      (by show 32 + d.val = 2 * 16 + d.val; omega)) ?_
    refine Eq.trans (vband2_apply _ s d g h') ?_
    exact ite_zero_congr fun _ =>
      vslab_apply 32 _ vt s g d _ (by show 2 * 16 + d.val = 32 + d.val; omega)
  | ⟨3, _⟩ =>
    refine Eq.trans (cat3_axis2_apply _ _ 3 (by simp) _ rfl 48 rfl s (kcol h' g) _ d
      (by show 48 + d.val = 3 * 16 + d.val; omega)) ?_
    refine Eq.trans (vband3_apply _ s d g h') ?_
    exact ite_zero_congr fun _ =>
      vslab_apply 48 _ vt s g d _ (by show 3 * 16 + d.val = 48 + d.val; omega)

/-! ## The kernel's own operands

The kernel builds the packed operands twice, once per chunk of 64 time steps, out of its loaded blocks. Both
constructions unfold to the same function of the time-first array. -/

/-- The packed key operand of the first chunk, as the kernel builds it from the loaded key block. -/
def kbd0 (k : Vec Ideal S1x64x64x64 .f32) : FVec Ideal S64x64x256 .f32 :=
  concatenate S64x64x256 1 [⟨S64x16x256, Gen.k0_pay7 k⟩, ⟨S64x16x256, Gen.k0_pay9 k⟩, ⟨S64x16x256, Gen.k0_pay11 k⟩,
    ⟨S64x16x256, concatenate S64x16x256 2 [⟨S64x16x192, broadcast S64x16x192 (Scalar.ofBits .f32 0x00000000#32)⟩,
      ⟨S64x16x64, Gen.k0_pay13 k⟩] concatenates_S64x16x192_S64x16x64_S64x16x256_d2⟩]
    concatenates_S64x16x256_S64x16x256_S64x16x256_S64x16x256_S64x64x256_d1

/-- The packed key operand of the second chunk. -/
def kbd1 (k : Vec Ideal S1x64x64x64 .f32) : FVec Ideal S64x64x256 .f32 :=
  concatenate S64x64x256 1 [⟨S64x16x256, Gen.k0_pay20 k⟩, ⟨S64x16x256, Gen.k0_pay22 k⟩, ⟨S64x16x256, Gen.k0_pay24 k⟩,
    ⟨S64x16x256, Gen.k0_pay26 k⟩]
    concatenates_S64x16x256_S64x16x256_S64x16x256_S64x16x256_S64x64x256_d1

/-- The packed value operand of the first chunk, as the kernel builds it from the loaded value block. -/
def vbd0 (v : Vec Ideal S1x64x64x64 .f32) : FVec Ideal S64x256x64 .f32 :=
  concatenate S64x256x64 2 [⟨S64x256x16, Gen.k0_pay8 v⟩, ⟨S64x256x16, Gen.k0_pay10 v⟩, ⟨S64x256x16, Gen.k0_pay12 v⟩,
    ⟨S64x256x16, concatenate S64x256x16 1 [⟨S64x192x16, broadcast S64x192x16 (Scalar.ofBits .f32 0x00000000#32)⟩,
      ⟨S64x64x16, extractStridedSlice S64x64x16 ![0, 0, 48] (Gen.k0_pay6 v) slices_S64x64x64_o0_0_48_S64x64x16⟩]
      concatenates_S64x192x16_S64x64x16_S64x256x16_d1⟩]
    concatenates_S64x256x16_S64x256x16_S64x256x16_S64x256x16_S64x256x64_d2

/-- The packed value operand of the second chunk. -/
def vbd1 (v : Vec Ideal S1x64x64x64 .f32) : FVec Ideal S64x256x64 .f32 :=
  concatenate S64x256x64 2 [⟨S64x256x16, Gen.k0_pay21 v⟩, ⟨S64x256x16, Gen.k0_pay23 v⟩, ⟨S64x256x16, Gen.k0_pay25 v⟩,
    ⟨S64x256x16, Gen.k0_pay27 v⟩]
    concatenates_S64x256x16_S64x256x16_S64x256x16_S64x256x16_S64x256x64_d2

theorem kbd0_eq (k : Vec Ideal S1x64x64x64 .f32) : kbd0 k = kbd (timeFirst k) := rfl
theorem kbd1_eq (k : Vec Ideal S1x64x64x64 .f32) : kbd1 k = kbd (timeFirst k) := rfl
theorem vbd0_eq (v : Vec Ideal S1x64x64x64 .f32) : vbd0 v = vbd (timeFirst v) := rfl
theorem vbd1_eq (v : Vec Ideal S1x64x64x64 .f32) : vbd1 v = vbd (timeFirst v) := rfl

/-- K_bd[s, 16h' + d, 64h + g] = k[0, g, 16h + d, s] if h' = h, and 0 otherwise (first chunk). -/
theorem kbd0_apply (k : Vec Ideal S1x64x64x64 .f32) (s : Fin 64) (h' : Fin 4) (d : Fin 16) (h : Fin 4) (g : Fin 64) :
    kbd0 k (ix3 s (hcol h' d) (kcol h g)) = if h' = h then k (ix4 (0 : Fin 1) g (hcol h d) s) else 0 := by
  rw [kbd0_eq, kbd_apply, timeFirst_apply]

/-- The same for the second chunk. -/
theorem kbd1_apply (k : Vec Ideal S1x64x64x64 .f32) (s : Fin 64) (h' : Fin 4) (d : Fin 16) (h : Fin 4) (g : Fin 64) :
    kbd1 k (ix3 s (hcol h' d) (kcol h g)) = if h' = h then k (ix4 (0 : Fin 1) g (hcol h d) s) else 0 := by
  rw [kbd1_eq, kbd_apply, timeFirst_apply]

/-- V_bd[s, 64h' + g, 16h + d] = v[0, g, 16h + d, s] if h' = h, and 0 otherwise (first chunk). -/
theorem vbd0_apply (v : Vec Ideal S1x64x64x64 .f32) (s : Fin 64) (h' : Fin 4) (g : Fin 64) (h : Fin 4) (d : Fin 16) :
    vbd0 v (ix3 s (kcol h' g) (hcol h d)) = if h' = h then v (ix4 (0 : Fin 1) g (hcol h d) s) else 0 := by
  rw [vbd0_eq, vbd_apply, timeFirst_apply]

/-- The same for the second chunk. -/
theorem vbd1_apply (v : Vec Ideal S1x64x64x64 .f32) (s : Fin 64) (h' : Fin 4) (g : Fin 64) (h : Fin 4) (d : Fin 16) :
    vbd1 v (ix3 s (kcol h' g) (hcol h d)) = if h' = h then v (ix4 (0 : Fin 1) g (hcol h d) s) else 0 := by
  rw [vbd1_eq, vbd_apply, timeFirst_apply]

/-! ## The two matrix products over the packed operands

What the kernel computes from the time-first queries and a packed key operand (the scaled scores, then a softmax
over each head's 64 columns), and from those weights and a packed value operand (the attended values, moved back to
the block's axis order). The values the kernel stores are these functions of the packed operands above. -/

/-- The attention weights from the time-first queries q and a packed key operand kb. -/
def weightsOf (q : FVec Ideal S64x64x64 .f32) (kb : FVec Ideal S64x64x256 .f32) : FVec Ideal S64x64x4x64 .f32 :=
  have zero : FVec Ideal S64x64x256 .f32 := constant S64x64x256 .f32 0x00000000#32
  have dots : FVec Ideal S64x64x256 .f32 := matmul dot_S64x64x64_S64x64x256_S64x64x256_2_1_1_2_0_0 none q kb zero
  have scaleBy : Ideal .f32 := Scalar.ofBits .f32 0x3E800000#32
  have scale : FVec Ideal S64x64x256 .f32 := broadcast S64x64x256 scaleBy
  have scores : FVec Ideal S64x64x256 .f32 := mulf dots scale
  have byHead : FVec Ideal S64x64x4x64 .f32 := shapeCast S64x64x4x64 scores shapeCasts_S64x64x256_S64x64x4x64
  have headMax : FVec Ideal S64x64x4 .f32 := multiReduction .maximumf [3] S64x64x4 byHead 0xFF800000#32 reduces_S64x64x4x64_S64x64x4 (.inl rfl) rfl
  have bottom : Ideal .f32 := Scalar.ofBits .f32 0xFF800000#32
  have floor : FVec Ideal S64x64x4 .f32 := broadcast S64x64x4 bottom
  have rowMax : FVec Ideal S64x64x4 .f32 := maximumf floor headMax
  have rowMaxCol : FVec Ideal S64x64x4x1 .f32 := shapeCast S64x64x4x1 rowMax shapeCasts_S64x64x4_S64x64x4x1
  have rowMaxAll : FVec Ideal S64x64x4x64 .f32 := broadcastTo S64x64x4x64 rowMaxCol broadcasts_S64x64x4x1_S64x64x4x64
  have shifted : FVec Ideal S64x64x4x64 .f32 := subf byHead rowMaxAll
  have expo : FVec Ideal S64x64x4x64 .f32 := exp shifted
  have denom : FVec Ideal S64x64x4 .f32 := multiReduction .add [3] S64x64x4 expo 0x00000000#32 reduces_S64x64x4x64_S64x64x4 (.inl rfl) rfl
  have denomCol : FVec Ideal S64x64x4x1 .f32 := shapeCast S64x64x4x1 denom shapeCasts_S64x64x4_S64x64x4x1
  have denomAll : FVec Ideal S64x64x4x64 .f32 := broadcastTo S64x64x4x64 denomCol broadcasts_S64x64x4x1_S64x64x4x64
  have weights : FVec Ideal S64x64x4x64 .f32 := divf expo denomAll
  weights

/-- The attended values from attention weights p and a packed value operand vb. -/
def attendOf (p : FVec Ideal S64x64x4x64 .f32) (vb : FVec Ideal S64x256x64 .f32) : FVec Ideal S1x64x64x64 .f32 :=
  have flat : FVec Ideal S64x64x256 .f32 := shapeCast S64x64x256 p shapeCasts_S64x64x4x64_S64x64x256
  have zero : FVec Ideal S64x64x64 .f32 := constant S64x64x64 .f32 0x00000000#32
  have mixed : FVec Ideal S64x64x64 .f32 := matmul dot_S64x64x256_S64x256x64_S64x64x64_2_1_1_2_0_0 none flat vb zero
  have blockOrder : FVec Ideal S64x64x64 .f32 := transpose S64x64x64 [1, 2, 0] mixed transposes_S64x64x64_p1_2_0_S64x64x64
  have withUnit : FVec Ideal S1x64x64x64 .f32 := shapeCast S1x64x64x64 blockOrder shapeCasts_S64x64x64_S1x64x64x64
  withUnit

theorem pay14_eq (q : FVec Ideal S64x64x64 .f32) (k : Vec Ideal S1x64x64x64 .f32) :
    Gen.k0_pay14 q (Gen.k0_pay7 k) (Gen.k0_pay9 k) (Gen.k0_pay11 k) (Gen.k0_pay13 k) = weightsOf q (kbd0 k) := rfl

theorem pay1_eq (q : FVec Ideal S64x64x64 .f32) (k : Vec Ideal S1x64x64x64 .f32) :
    Gen.k0_pay1 q (Gen.k0_pay20 k) (Gen.k0_pay22 k) (Gen.k0_pay24 k) (Gen.k0_pay26 k) = weightsOf q (kbd1 k) := rfl

theorem pay15_eq (q : FVec Ideal S64x64x64 .f32) (k v : Vec Ideal S1x64x64x64 .f32) :
    Gen.k0_pay15 q (Gen.k0_pay6 v) (Gen.k0_pay7 k) (Gen.k0_pay8 v) (Gen.k0_pay9 k) (Gen.k0_pay10 v) (Gen.k0_pay11 k)
      (Gen.k0_pay12 v) (Gen.k0_pay13 k) = attendOf (weightsOf q (kbd0 k)) (vbd0 v) := rfl

theorem pay2_eq (q : FVec Ideal S64x64x64 .f32) (k v : Vec Ideal S1x64x64x64 .f32) :
    Gen.k0_pay2 q (Gen.k0_pay20 k) (Gen.k0_pay21 v) (Gen.k0_pay22 k) (Gen.k0_pay23 v) (Gen.k0_pay24 k) (Gen.k0_pay25 v)
      (Gen.k0_pay26 k) (Gen.k0_pay27 v) = attendOf (weightsOf q (kbd1 k)) (vbd1 v) := rfl

end Cert.Attn.Layout

end
-- ==== Proof.BlockValue.lean ====
/-
  What the kernel body leaves in its two output blocks, entry by entry.

  A staged block is [1, 64, 64, 128]: group × hidden column × 128 local time steps. The body works on the two halves of
  64 time steps separately and stores each half of each output. At local time step `y` the first output block holds the
  attended values and the second the head-averaged attention of the three input blocks' tables at that time step: the
  body's packed operands are block-diagonal (one band per head), and for such operands the chunk's arithmetic is the
  per-head softmax attention.
-/
import proofs.«121823_j31353261260858_2_alg».proof.Proof.Gen.KernelIdeal.Frame
import proofs.«121823_j31353261260858_2_alg».proof.Proof.Spec
import proofs.«121823_j31353261260858_2_alg».proof.Proof.SoftCore
import proofs.«121823_j31353261260858_2_alg».proof.Proof.KernelLayout
import Idealize.ShloMosaic.Lib.Pipeline.Value

set_option maxRecDepth 16384

noncomputable section

namespace Cert.Attn.Block

open Idealize.ShloMosaic Idealize.ShloMosaic.ValueIdx Cert.KernelIdeal Cert.Attn Cert.Attn.Core

/-- The table of a staged block [1, 64, 64, 128] at local time step `y`: group × hidden column. -/
def btab (x : Vec Ideal S1x64x64x128 .f32) (y : Fin 128) : Tab := fun g c => x (ix4 (0 : Fin 1) g c y)

/-- The table of a loaded half block [1, 64, 64, 64] at its local time step `s`. -/
def stab (x : Vec Ideal S1x64x64x64 .f32) (s : Fin 64) : Tab := fun g c => x (ix4 (0 : Fin 1) g c s)

/-! ## One chunk of 64 time steps: what the body stores is the specification at each time step -/

/-- First half, first output: the packed operands are block-diagonal, so the chunk's arithmetic is the attended values. -/
theorem chunk0_x (q k v : Vec Ideal S1x64x64x64 .f32) (g c s : Fin 64) :
    Gen.k0_pay15 (F := Ideal) (Gen.k0_pay4 q) (Gen.k0_pay6 v) (Gen.k0_pay7 k) (Gen.k0_pay8 v) (Gen.k0_pay9 k) (Gen.k0_pay10 v) (Gen.k0_pay11 k) (Gen.k0_pay12 v) (Gen.k0_pay13 k) (ix4 (0 : Fin 1) g c s)
      = xval (stab q s) (stab k s) (stab v s) g c :=
  xpay_apply (Gen.k0_pay4 q) (Layout.kbd0 k) (Layout.vbd0 v) s (stab q s) (stab k s) (stab v s)
    (fun g c => Layout.qc_apply q s g c) (Layout.kbd0_apply k s) (Layout.vbd0_apply v s) g c

/-- Second half, first output. -/
theorem chunk1_x (q k v : Vec Ideal S1x64x64x64 .f32) (g c s : Fin 64) :
    Gen.k0_pay2 (F := Ideal) (Gen.k0_pay17 q) (Gen.k0_pay20 k) (Gen.k0_pay21 v) (Gen.k0_pay22 k) (Gen.k0_pay23 v) (Gen.k0_pay24 k) (Gen.k0_pay25 v) (Gen.k0_pay26 k) (Gen.k0_pay27 v) (ix4 (0 : Fin 1) g c s)
      = xval (stab q s) (stab k s) (stab v s) g c :=
  xpay_apply (Gen.k0_pay17 q) (Layout.kbd1 k) (Layout.vbd1 v) s (stab q s) (stab k s) (stab v s)
    (fun g c => Layout.pay17_apply q s g c) (Layout.kbd1_apply k s) (Layout.vbd1_apply v s) g c

/-- First half, second output: the attention averaged over the heads. -/
theorem chunk0_a (q k : Vec Ideal S1x64x64x64 .f32) (gq gk s : Fin 64) :
    Gen.k0_pay16 (F := Ideal) (Gen.k0_pay4 q) (Gen.k0_pay7 k) (Gen.k0_pay9 k) (Gen.k0_pay11 k) (Gen.k0_pay13 k) (ix4 (0 : Fin 1) gq gk s)
      = aval (stab q s) (stab k s) gq gk :=
  apay_apply (Gen.k0_pay4 q) (Layout.kbd0 k) s (stab q s) (stab k s)
    (fun g c => Layout.qc_apply q s g c) (Layout.kbd0_apply k s) gq gk

/-- Second half, second output. -/
theorem chunk1_a (q k : Vec Ideal S1x64x64x64 .f32) (gq gk s : Fin 64) :
    Gen.k0_pay3 (F := Ideal) (Gen.k0_pay17 q) (Gen.k0_pay20 k) (Gen.k0_pay22 k) (Gen.k0_pay24 k) (Gen.k0_pay26 k) (ix4 (0 : Fin 1) gq gk s)
      = aval (stab q s) (stab k s) gq gk :=
  apay_apply (Gen.k0_pay17 q) (Layout.kbd1 k) s (stab q s) (stab k s)
    (fun g c => Layout.pay17_apply q s g c) (Layout.kbd1_apply k s) gq gk

/-! ## The two halves of a staged block -/

/-- The first half of a block, loaded, holds at (0, g, c, s) the block's entry at local time step `s`. -/
theorem stab_ld0 (x : Vec Ideal S1x64x64x128 .f32) (s : Fin 64) :
    stab (View.ld x Gen.r0_0) s = btab x ⟨s.val, by omega⟩ := by
  funext g c
  show x (Gen.r0_0.idx (ix4 (0 : Fin 1) g c s)) = x (ix4 (0 : Fin 1) g c ⟨s.val, by omega⟩)
  refine congrArg x (funext fun a => Fin.ext ?_)
  match a with
  | ⟨0, _⟩ => rfl
  | ⟨1, _⟩ => show 0 + 1 * g.val = g.val; omega
  | ⟨2, _⟩ => show 0 + 1 * c.val = c.val; omega
  | ⟨3, _⟩ => show 0 + 1 * s.val = s.val; omega

/-- The second half holds the block's entry at local time step `64 + s`. -/
theorem stab_ld1 (x : Vec Ideal S1x64x64x128 .f32) (s : Fin 64) :
    stab (View.ld x Gen.r0_1) s = btab x ⟨64 + s.val, by omega⟩ := by
  funext g c
  show x (Gen.r0_1.idx (ix4 (0 : Fin 1) g c s)) = x (ix4 (0 : Fin 1) g c ⟨64 + s.val, by omega⟩)
  refine congrArg x (funext fun a => Fin.ext ?_)
  match a with
  | ⟨0, _⟩ => rfl
  | ⟨1, _⟩ => show 0 + 1 * g.val = g.val; omega
  | ⟨2, _⟩ => show 0 + 1 * c.val = c.val; omega
  | ⟨3, _⟩ => show 64 + 1 * s.val = 64 + s.val; omega

/-- An index of the first half, placed in the block. -/
theorem emb0 (g c s : Fin 64) : Gen.r0_0.emb (ix4 (0 : Fin 1) g c s) = ix4 (0 : Fin 1) g c (⟨s.val, by omega⟩ : Fin 128) := by
  funext a; apply Fin.ext
  match a with
  | ⟨0, _⟩ => rfl
  | ⟨1, _⟩ => show 0 + 1 * g.val = g.val; omega
  | ⟨2, _⟩ => show 0 + 1 * c.val = c.val; omega
  | ⟨3, _⟩ => show 0 + 1 * s.val = s.val; omega

/-- An index of the second half, placed in the block. -/
theorem emb1 (g c s : Fin 64) : Gen.r0_1.emb (ix4 (0 : Fin 1) g c s) = ix4 (0 : Fin 1) g c (⟨64 + s.val, by omega⟩ : Fin 128) := by
  funext a; apply Fin.ext
  match a with
  | ⟨0, _⟩ => rfl
  | ⟨1, _⟩ => show 0 + 1 * g.val = g.val; omega
  | ⟨2, _⟩ => show 0 + 1 * c.val = c.val; omega
  | ⟨3, _⟩ => show 64 + 1 * s.val = 64 + s.val; omega

/-- Every index of a half block is (0, g, c, s). -/
theorem half_ix (x : S1x64x64x64.Idx) : ∃ g c s : Fin 64, x = ix4 (0 : Fin 1) g c s := by
  refine ⟨x 1, x 2, x 3, ?_⟩
  have h0 : x 0 = (0 : Fin 1) := Fin.ext (by have h : (x 0).val < 1 := (x 0).isLt; show (x 0).val = 0; omega)
  funext a
  match a with
  | ⟨0, _⟩ => exact h0
  | ⟨1, _⟩ => rfl
  | ⟨2, _⟩ => rfl
  | ⟨3, _⟩ => rfl

/-! ## The two output blocks, entry by entry -/

/-- The first output block as ONE function of the block index. -/
def xblk (x0 x1 x2 : Vec Ideal S1x64x64x128 .f32) : Vec Ideal S1x64x64x128 .f32 :=
  fun j => xval (btab x0 (j 3)) (btab x1 (j 3)) (btab x2 (j 3)) (j 1) (j 2)

/-- The second output block as ONE function of the block index. -/
def ablk (x0 x1 : Vec Ideal S1x64x64x128 .f32) : Vec Ideal S1x64x64x128 .f32 :=
  fun j => aval (btab x0 (j 3)) (btab x1 (j 3)) (j 1) (j 2)

/-- What is stored to the second half of the first output is the block's function on the second half. -/
theorem xpiece1 (x0 x1 x2 : Vec Ideal S1x64x64x128 .f32) (x : S1x64x64x64.Idx) :
    Gen.k0_pay2 (F := Ideal) (Gen.k0_pay17 (View.ld x0 Gen.r0_1)) (Gen.k0_pay20 (View.ld x1 Gen.r0_1)) (Gen.k0_pay21 (View.ld x2 Gen.r0_1)) (Gen.k0_pay22 (View.ld x1 Gen.r0_1)) (Gen.k0_pay23 (View.ld x2 Gen.r0_1)) (Gen.k0_pay24 (View.ld x1 Gen.r0_1)) (Gen.k0_pay25 (View.ld x2 Gen.r0_1)) (Gen.k0_pay26 (View.ld x1 Gen.r0_1)) (Gen.k0_pay27 (View.ld x2 Gen.r0_1)) x
      = xblk x0 x1 x2 (Gen.r0_1.emb x) := by
  obtain ⟨g, c, s, rfl⟩ := half_ix x
  refine (chunk1_x _ _ _ g c s).trans ?_
  rw [emb1, stab_ld1, stab_ld1, stab_ld1]
  rfl

/-- What is stored to the first half of the first output is the block's function on the first half. -/
theorem xpiece0 (x0 x1 x2 : Vec Ideal S1x64x64x128 .f32) (x : S1x64x64x64.Idx) :
    Gen.k0_pay15 (F := Ideal) (Gen.k0_pay4 (View.ld x0 Gen.r0_0)) (Gen.k0_pay6 (View.ld x2 Gen.r0_0)) (Gen.k0_pay7 (View.ld x1 Gen.r0_0)) (Gen.k0_pay8 (View.ld x2 Gen.r0_0)) (Gen.k0_pay9 (View.ld x1 Gen.r0_0)) (Gen.k0_pay10 (View.ld x2 Gen.r0_0)) (Gen.k0_pay11 (View.ld x1 Gen.r0_0)) (Gen.k0_pay12 (View.ld x2 Gen.r0_0)) (Gen.k0_pay13 (View.ld x1 Gen.r0_0)) x
      = xblk x0 x1 x2 (Gen.r0_0.emb x) := by
  obtain ⟨g, c, s, rfl⟩ := half_ix x
  refine (chunk0_x _ _ _ g c s).trans ?_
  rw [emb0, stab_ld0, stab_ld0, stab_ld0]
  rfl

theorem apiece1 (x0 x1 : Vec Ideal S1x64x64x128 .f32) (x : S1x64x64x64.Idx) :
    Gen.k0_pay3 (F := Ideal) (Gen.k0_pay17 (View.ld x0 Gen.r0_1)) (Gen.k0_pay20 (View.ld x1 Gen.r0_1)) (Gen.k0_pay22 (View.ld x1 Gen.r0_1)) (Gen.k0_pay24 (View.ld x1 Gen.r0_1)) (Gen.k0_pay26 (View.ld x1 Gen.r0_1)) x
      = ablk x0 x1 (Gen.r0_1.emb x) := by
  obtain ⟨g, c, s, rfl⟩ := half_ix x
  refine (chunk1_a _ _ g c s).trans ?_
  rw [emb1, stab_ld1, stab_ld1]
  rfl

theorem apiece0 (x0 x1 : Vec Ideal S1x64x64x128 .f32) (x : S1x64x64x64.Idx) :
    Gen.k0_pay16 (F := Ideal) (Gen.k0_pay4 (View.ld x0 Gen.r0_0)) (Gen.k0_pay7 (View.ld x1 Gen.r0_0)) (Gen.k0_pay9 (View.ld x1 Gen.r0_0)) (Gen.k0_pay11 (View.ld x1 Gen.r0_0)) (Gen.k0_pay13 (View.ld x1 Gen.r0_0)) x
      = ablk x0 x1 (Gen.r0_0.emb x) := by
  obtain ⟨g, c, s, rfl⟩ := half_ix x
  refine (chunk0_a _ _ g c s).trans ?_
  rw [emb0, stab_ld0, stab_ld0]
  rfl

/-- The body stores each output block in two halves along the time axis; what is stored to each half is the block's function
    on its half, and the two halves cover the block. -/
theorem out0_3_eq (x0 x1 x2 : Vec Ideal S1x64x64x128 .f32) :
    Gen.out0_3 (F := Ideal) x0 x1 x2 = xblk x0 x1 x2 := by
  funext y
  unfold Gen.out0_3
  refine View.canon_apply_of_pieces (xblk x0 x1 x2) _ (fun p hp x => ?_) y (Gen.cover0_3 _ _ y)
  simp only [List.mem_cons, List.mem_nil_iff, or_false] at hp
  rcases hp with rfl | rfl
  · exact xpiece1 x0 x1 x2 x
  · exact xpiece0 x0 x1 x2 x

theorem out0_4_eq (x0 x1 x2 : Vec Ideal S1x64x64x128 .f32) :
    Gen.out0_4 (F := Ideal) x0 x1 x2 = ablk x0 x1 := by
  funext y
  unfold Gen.out0_4
  refine View.canon_apply_of_pieces (ablk x0 x1) _ (fun p hp x => ?_) y (Gen.cover0_4 _ _ y)
  simp only [List.mem_cons, List.mem_nil_iff, or_false] at hp
  rcases hp with rfl | rfl
  · exact apiece1 x0 x1 x
  · exact apiece0 x0 x1 x

theorem out0_3_apply (x0 x1 x2 : Vec Ideal S1x64x64x128 .f32) (g c : Fin 64) (y : Fin 128) :
    Cert.KernelIdeal.Gen.out0_3 (F := Ideal) x0 x1 x2 (ix4 (0 : Fin 1) g c y)
      = xval (btab x0 y) (btab x1 y) (btab x2 y) g c := by
  rw [out0_3_eq]; rfl

theorem out0_4_apply (x0 x1 x2 : Vec Ideal S1x64x64x128 .f32) (gq gk : Fin 64) (y : Fin 128) :
    Cert.KernelIdeal.Gen.out0_4 (F := Ideal) x0 x1 x2 (ix4 (0 : Fin 1) gq gk y)
      = aval (btab x0 y) (btab x1 y) gq gk := by
  rw [out0_4_eq]; rfl

end Cert.Attn.Block

end
-- ==== Proof.KernelRun.lean ====
/-
  From the kernel's blocks to its result arrays, and through the two reshapes that end the program.

  The kernel runs over a 4 × 16 grid of points (batch entry i, time block j). Every one of its five windows stages
  a block [1, 64, 64, 128] of an array [4, 64, 64, 2048] = batch × group × hidden × time, and all five use the same
  index map (i, j) ↦ (i, 0, 0, j): entry (0, g, c, y) of the block of point (i, j) is array entry (i, g, c, 128·j + y).

  * Each input block, read as a table at local time step y, is therefore the table of its argument array at batch
    entry i and time step 128·j + y (`btabQ`, `btabK`, `btabV`).
  * The body leaves in its two output blocks the attended values and the head-averaged attention of those tables, so
    what point (i, j) writes back is block (i, j) of the whole-array functions `outX` and `outA` of the argument arrays
    (`flushed3_eq`, `flushed4_eq`).
  * Array entry (b, g, c, T) lies in the block of the point (b, T / 128): the blocks cover both result arrays
    (`cover3`, `cover4`), which hence end holding `outX` and `outA` (`final3`, `final4`).
  * The program returns the two arrays reshaped, [4, 4096, 2048] and [4, 1, 64, 64, 2048], and leaves its arguments
    as they were (`kernel_run`).
-/
import proofs.«121823_j31353261260858_2_alg».proof.Proof.BlockValue
import Idealize.ShloMosaic.Lib.Pipeline.Value

noncomputable section

namespace Cert.Attn.Run

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The three argument arrays of core `c`. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

/-- All five windows have the same block index at every point of the grid: (i, 0, 0, j) with i ≤ 3 and j ≤ 15
    (the three inputs and the second output are compared with the first output, axis by axis). -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = win0_3.index t (3 : Fin 4)
    ∧ win0_1.index t (0 : Fin 4) = win0_3.index t (0 : Fin 4) ∧ win0_1.index t (1 : Fin 4) = 0
    ∧ win0_1.index t (2 : Fin 4) = 0 ∧ win0_1.index t (3 : Fin 4) = win0_3.index t (3 : Fin 4)
    ∧ win0_2.index t (0 : Fin 4) = win0_3.index t (0 : Fin 4) ∧ win0_2.index t (1 : Fin 4) = 0
    ∧ win0_2.index t (2 : Fin 4) = 0 ∧ win0_2.index t (3 : Fin 4) = win0_3.index t (3 : Fin 4)
    ∧ win0_4.index t (0 : Fin 4) = win0_3.index t (0 : Fin 4) ∧ win0_4.index t (1 : Fin 4) = 0
    ∧ win0_4.index t (2 : Fin 4) = 0 ∧ win0_4.index t (3 : Fin 4) = win0_3.index t (3 : Fin 4)
    ∧ win0_3.index t (0 : Fin 4) ≤ 3 ∧ win0_3.index t (1 : Fin 4) = 0
    ∧ win0_3.index t (2 : Fin 4) = 0 ∧ win0_3.index t (3 : Fin 4) ≤ 15 :=
  (by decide +kernel : ∀ t : Fin grid0.N, _)

/-- Every block index (i, 0, 0, j) with i < 4, j < 16 is the block index of some point of the grid. -/
theorem idx_onto : ∀ (q0 : Fin 4) (q3 : Fin 16), ∃ t : Fin cfg0.N, win0_3.index t = ![q0.val, 0, 0, q3.val] :=
  (by decide +kernel : ∀ (q0 : Fin 4) (q3 : Fin 16), ∃ t : Fin grid0.N, win0_3.index t = ![q0.val, 0, 0, q3.val])

/-- A staged block whose entries at local time step `y` are an array's entries at batch entry `b`, time step `T`
    has that array's table there. -/
theorem btab_of (A : Arr) (x : Vec Ideal S1x64x64x128 .f32) (b : Fin 4) (T : Fin 2048) (y : Fin 128)
    (hx : ∀ g cc : Fin 64, x (ix4 (0 : Fin 1) g cc y) = A (ix4 b g cc T)) : Block.btab x y = tab A b T :=
  funext fun g => funext fun cc => hx g cc

/-- Input block 0 at a grid point, entry by entry: the argument array at the batch entry and time step the point's
    block index and the local time step name. -/
theorem iblk0_apply (c : Dev nD) (t : Fin cfg0.N) (g cc : Fin 64) (y : Fin 128) (b : Fin 4) (T : Fin 2048)
    (hb : b.val = win0_3.index t (0 : Fin 4)) (hT : T.val = win0_3.index t (3 : Fin 4) * 128 + y.val) :
    (iblk m c 0 t : Vec Ideal S1x64x64x128 .f32) (ix4 (0 : Fin 1) g cc y) = argQ m c (ix4 b g cc T) := by
  obtain ⟨q0, q1, q2, q3, k0, k1, k2, k3, v0, v1, v2, v3, a0, a1, a2, a3, r0, r1, r2, r3⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * (0 : Fin 1).val = b.val; rw [hb]; simp only [Fin.val_zero]; omega
  | ⟨1, _⟩ => show win0_0.index t (1 : Fin 4) * 64 + 1 * g.val = g.val; omega
  | ⟨2, _⟩ => show win0_0.index t (2 : Fin 4) * 64 + 1 * cc.val = cc.val; omega
  | ⟨3, _⟩ => show win0_0.index t (3 : Fin 4) * 128 + 1 * y.val = T.val; rw [hT]; omega

/-- Input block 1 at a grid point, entry by entry: the argument array at the batch entry and time step the point's
    block index and the local time step name. -/
theorem iblk1_apply (c : Dev nD) (t : Fin cfg0.N) (g cc : Fin 64) (y : Fin 128) (b : Fin 4) (T : Fin 2048)
    (hb : b.val = win0_3.index t (0 : Fin 4)) (hT : T.val = win0_3.index t (3 : Fin 4) * 128 + y.val) :
    (iblk m c 1 t : Vec Ideal S1x64x64x128 .f32) (ix4 (0 : Fin 1) g cc y) = argK m c (ix4 b g cc T) := by
  obtain ⟨q0, q1, q2, q3, k0, k1, k2, k3, v0, v1, v2, v3, a0, a1, a2, a3, r0, r1, r2, r3⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 4) * 1 + 1 * (0 : Fin 1).val = b.val; rw [hb]; simp only [Fin.val_zero]; omega
  | ⟨1, _⟩ => show win0_1.index t (1 : Fin 4) * 64 + 1 * g.val = g.val; omega
  | ⟨2, _⟩ => show win0_1.index t (2 : Fin 4) * 64 + 1 * cc.val = cc.val; omega
  | ⟨3, _⟩ => show win0_1.index t (3 : Fin 4) * 128 + 1 * y.val = T.val; rw [hT]; omega

/-- Input block 2 at a grid point, entry by entry: the argument array at the batch entry and time step the point's
    block index and the local time step name. -/
theorem iblk2_apply (c : Dev nD) (t : Fin cfg0.N) (g cc : Fin 64) (y : Fin 128) (b : Fin 4) (T : Fin 2048)
    (hb : b.val = win0_3.index t (0 : Fin 4)) (hT : T.val = win0_3.index t (3 : Fin 4) * 128 + y.val) :
    (iblk m c 2 t : Vec Ideal S1x64x64x128 .f32) (ix4 (0 : Fin 1) g cc y) = argV m c (ix4 b g cc T) := by
  obtain ⟨q0, q1, q2, q3, k0, k1, k2, k3, v0, v1, v2, v3, a0, a1, a2, a3, r0, r1, r2, r3⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 4) * 1 + 1 * (0 : Fin 1).val = b.val; rw [hb]; simp only [Fin.val_zero]; omega
  | ⟨1, _⟩ => show win0_2.index t (1 : Fin 4) * 64 + 1 * g.val = g.val; omega
  | ⟨2, _⟩ => show win0_2.index t (2 : Fin 4) * 64 + 1 * cc.val = cc.val; omega
  | ⟨3, _⟩ => show win0_2.index t (3 : Fin 4) * 128 + 1 * y.val = T.val; rw [hT]; omega

/-- An index of a staged block [1, 64, 64, 128] from its coordinates. -/
theorem eq_ix4_unit (j : S1x64x64x128.Idx) : j = ix4 (0 : Fin 1) (j 1) (j 2) (j 3) := by
  funext a
  match a with
  | ⟨0, _⟩ => exact Fin.fin_one_eq_zero (j 0)
  | ⟨1, _⟩ => rfl
  | ⟨2, _⟩ => rfl
  | ⟨3, _⟩ => rfl

/-- The batch entry and the time step that entry `y` (local time step) of the block of grid point `t` is about. -/
def batchOf (t : Fin cfg0.N) : Fin 4 := ⟨win0_3.index t (0 : Fin 4), by have := (idx_facts t).2.2.2.2.2.2.2.2.2.2.2.2.2.2.2.2.1; omega⟩
def timeOf (t : Fin cfg0.N) (y : Fin 128) : Fin 2048 :=
  ⟨win0_3.index t (3 : Fin 4) * 128 + y.val, by have := (idx_facts t).2.2.2.2.2.2.2.2.2.2.2.2.2.2.2.2.2.2.2; omega⟩

theorem batchOf_val (t : Fin cfg0.N) : (batchOf t).val = win0_3.index t (0 : Fin 4) := rfl
theorem timeOf_val (t : Fin cfg0.N) (y : Fin 128) : (timeOf t y).val = win0_3.index t (3 : Fin 4) * 128 + y.val := rfl

/-- Where entry (0, g, c, y) of output block 3 at point `t` lies in its array. -/
theorem emb3 (t : Fin cfg0.N) (g cc : Fin 64) (y : Fin 128) :
    ((cfg0.win 3).blk t).view.emb (ix4 (0 : Fin 1) g cc y) = ix4 (batchOf t) g cc (timeOf t y) := by
  obtain ⟨q0, q1, q2, q3, k0, k1, k2, k3, v0, v1, v2, v3, a0, a1, a2, a3, r0, r1, r2, r3⟩ := idx_facts t
  funext a
  apply Fin.ext
  match a with
  | ⟨0, _⟩ => show win0_3.index t (0 : Fin 4) * 1 + 1 * (0 : Fin 1).val = (batchOf t).val; rw [batchOf_val]; simp only [Fin.val_zero]; omega
  | ⟨1, _⟩ => show win0_3.index t (1 : Fin 4) * 64 + 1 * g.val = g.val; omega
  | ⟨2, _⟩ => show win0_3.index t (2 : Fin 4) * 64 + 1 * cc.val = cc.val; omega
  | ⟨3, _⟩ => show win0_3.index t (3 : Fin 4) * 128 + 1 * y.val = (timeOf t y).val; rw [timeOf_val]; omega

/-- The same for output block 4. -/
theorem emb4 (t : Fin cfg0.N) (g cc : Fin 64) (y : Fin 128) :
    ((cfg0.win 4).blk t).view.emb (ix4 (0 : Fin 1) g cc y) = ix4 (batchOf t) g cc (timeOf t y) := by
  obtain ⟨q0, q1, q2, q3, k0, k1, k2, k3, v0, v1, v2, v3, a0, a1, a2, a3, r0, r1, r2, r3⟩ := idx_facts t
  funext a
  apply Fin.ext
  match a with
  | ⟨0, _⟩ => show win0_4.index t (0 : Fin 4) * 1 + 1 * (0 : Fin 1).val = (batchOf t).val; rw [batchOf_val]; simp only [Fin.val_zero]; omega
  | ⟨1, _⟩ => show win0_4.index t (1 : Fin 4) * 64 + 1 * g.val = g.val; omega
  | ⟨2, _⟩ => show win0_4.index t (2 : Fin 4) * 64 + 1 * cc.val = cc.val; omega
  | ⟨3, _⟩ => show win0_4.index t (3 : Fin 4) * 128 + 1 * y.val = (timeOf t y).val; rw [timeOf_val]; omega

/-- The three input blocks at a point, as tables at local time step `y`: the argument arrays' tables at the point's
    batch entry and time step. -/
theorem btabQ (c : Dev nD) (t : Fin cfg0.N) (y : Fin 128) :
    Block.btab (iblk m c 0 t) y = tab (argQ m c) (batchOf t) (timeOf t y) :=
  btab_of (argQ m c) (iblk m c 0 t) (batchOf t) (timeOf t y) y
    fun g cc => iblk0_apply m c t g cc y (batchOf t) (timeOf t y) (batchOf_val t) (timeOf_val t y)
theorem btabK (c : Dev nD) (t : Fin cfg0.N) (y : Fin 128) :
    Block.btab (iblk m c 1 t) y = tab (argK m c) (batchOf t) (timeOf t y) :=
  btab_of (argK m c) (iblk m c 1 t) (batchOf t) (timeOf t y) y
    fun g cc => iblk1_apply m c t g cc y (batchOf t) (timeOf t y) (batchOf_val t) (timeOf_val t y)
theorem btabV (c : Dev nD) (t : Fin cfg0.N) (y : Fin 128) :
    Block.btab (iblk m c 2 t) y = tab (argV m c) (batchOf t) (timeOf t y) :=
  btab_of (argV m c) (iblk m c 2 t) (batchOf t) (timeOf t y) y
    fun g cc => iblk2_apply m c t g cc y (batchOf t) (timeOf t y) (batchOf_val t) (timeOf_val t y)

/-- What point `t` writes back to the first result array is block `t` of the attended values. -/
theorem flushed3_eq (c : Dev nD) (t : Fin cfg0.N) :
    (dats m 0 c).flushed 3 t = ((cfg0.win 3).blk t).view.read (Elt Ideal) (outX (argQ m c) (argK m c) (argV m c)) := by
  show (cfg0.win 3).cut (grid0.coords t) ((dats m 0 c).after 3 t) = _
  rw [after0_3]
  refine funext fun (j : S1x64x64x128.Idx) => ?_
  obtain ⟨g, cc, y, rfl⟩ : ∃ (g cc : Fin 64) (y : Fin 128), j = ix4 (0 : Fin 1) g cc y := ⟨j 1, j 2, j 3, eq_ix4_unit j⟩
  show out0_3 (F := Ideal) (iblk m c 0 t) (iblk m c 1 t) (iblk m c 2 t) (ix4 (0 : Fin 1) g cc y)
    = outX (argQ m c) (argK m c) (argV m c) (((cfg0.win 3).blk t).view.emb (ix4 (0 : Fin 1) g cc y))
  rw [emb3 t g cc y, outX_ix4]
  refine (Block.out0_3_apply (iblk m c 0 t) (iblk m c 1 t) (iblk m c 2 t) g cc y).trans ?_
  rw [btabQ m c t y, btabK m c t y, btabV m c t y]

/-- What point `t` writes back to the second result array is block `t` of the head-averaged attention. -/
theorem flushed4_eq (c : Dev nD) (t : Fin cfg0.N) :
    (dats m 0 c).flushed 4 t = ((cfg0.win 4).blk t).view.read (Elt Ideal) (outA (argQ m c) (argK m c)) := by
  show (cfg0.win 4).cut (grid0.coords t) ((dats m 0 c).after 4 t) = _
  rw [after0_4]
  refine funext fun (j : S1x64x64x128.Idx) => ?_
  obtain ⟨g, cc, y, rfl⟩ : ∃ (g cc : Fin 64) (y : Fin 128), j = ix4 (0 : Fin 1) g cc y := ⟨j 1, j 2, j 3, eq_ix4_unit j⟩
  show out0_4 (F := Ideal) (iblk m c 0 t) (iblk m c 1 t) (iblk m c 2 t) (ix4 (0 : Fin 1) g cc y)
    = outA (argQ m c) (argK m c) (((cfg0.win 4).blk t).view.emb (ix4 (0 : Fin 1) g cc y))
  rw [emb4 t g cc y, outA_ix4]
  refine (Block.out0_4_apply (iblk m c 0 t) (iblk m c 1 t) (iblk m c 2 t) g cc y).trans ?_
  rw [btabQ m c t y, btabK m c t y]

/-- Membership in the block of point `t` of the first result array, axis by axis: coordinate `a` lies in the 1, 64, 64 or
    128 consecutive positions that start at the block index times that extent. -/
theorem mem_blk3 (t : Fin cfg0.N) (i : S4x64x64x2048.Idx) :
    i ∈ ((cfg0.win 3).blk t).view.set ↔ ∀ a : Fin 4, win0_3.index t a * S1x64x64x128.size a ≤ (i a).val ∧ (i a).val < win0_3.index t a * S1x64x64x128.size a + S1x64x64x128.size a := by
  show i ∈ ((View.whole main_v0_0).slice (win0_3.rect t)).set ↔ _
  rw [View.set_slice_whole, Rect.mem_set_unit]
  exact Iff.rfl

/-- The same for the second result array. -/
theorem mem_blk4 (t : Fin cfg0.N) (i : S4x64x64x2048.Idx) :
    i ∈ ((cfg0.win 4).blk t).view.set ↔ ∀ a : Fin 4, win0_4.index t a * S1x64x64x128.size a ≤ (i a).val ∧ (i a).val < win0_4.index t a * S1x64x64x128.size a + S1x64x64x128.size a := by
  show i ∈ ((View.whole main_v0_1).slice (win0_4.rect t)).set ↔ _
  rw [View.set_slice_whole, Rect.mem_set_unit]
  exact Iff.rfl

/-- Every entry (b, g, c, T) of the array lies in the block of the point with block index (b, 0, 0, T / 128). -/
theorem cover3 (i : S4x64x64x2048.Idx) :
    ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 64 := (i 2).isLt
  have h3 : (i 3).val < 2048 := (i 3).isLt
  obtain ⟨t, ht⟩ := idx_onto ⟨(i 0).val, h0⟩ ⟨(i 3).val / 128, by omega⟩
  obtain ⟨q0, q1, q2, q3, k0, k1, k2, k3, v0, v1, v2, v3, a0, a1, a2, a3, r0, r1, r2, r3⟩ := idx_facts t
  have e0 : win0_3.index t (0 : Fin 4) = (i 0).val := congrFun ht 0
  have e3 : win0_3.index t (3 : Fin 4) = (i 3).val / 128 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 64 ≤ (i 1).val ∧ (i 1).val < win0_3.index t (1 : Fin 4) * 64 + 64; omega
  | ⟨2, _⟩ => show win0_3.index t (2 : Fin 4) * 64 ≤ (i 2).val ∧ (i 2).val < win0_3.index t (2 : Fin 4) * 64 + 64; omega
  | ⟨3, _⟩ => show win0_3.index t (3 : Fin 4) * 128 ≤ (i 3).val ∧ (i 3).val < win0_3.index t (3 : Fin 4) * 128 + 128; omega

/-- The same for the second result array. -/
theorem cover4 (i : S4x64x64x2048.Idx) :
    ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 64 := (i 2).isLt
  have h3 : (i 3).val < 2048 := (i 3).isLt
  obtain ⟨t, ht⟩ := idx_onto ⟨(i 0).val, h0⟩ ⟨(i 3).val / 128, by omega⟩
  obtain ⟨q0, q1, q2, q3, k0, k1, k2, k3, v0, v1, v2, v3, a0, a1, a2, a3, r0, r1, r2, r3⟩ := idx_facts t
  have e0 : win0_3.index t (0 : Fin 4) = (i 0).val := congrFun ht 0
  have e3 : win0_3.index t (3 : Fin 4) = (i 3).val / 128 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 64 ≤ (i 2).val ∧ (i 2).val < win0_4.index t (2 : Fin 4) * 64 + 64; omega
  | ⟨3, _⟩ => show win0_4.index t (3 : Fin 4) * 128 ≤ (i 3).val ∧ (i 3).val < win0_4.index t (3 : Fin 4) * 128 + 128; omega

/-- The first result array after the region: the attended values. -/
theorem final3 (c : Dev nD) : (dats m 0 c).arrAt 3 cfg0.N = outX (argQ m c) (argK m c) (argV m c) :=
  (dats m 0 c).arrAt_eq_of_cover 3 (outX (argQ m c) (argK m c) (argV m c)) (fun t _ => flushed3_eq m c t) cover3

/-- The second result array after the region: the head-averaged attention. -/
theorem final4 (c : Dev nD) : (dats m 0 c).arrAt 4 cfg0.N = outA (argQ m c) (argK m c) :=
  (dats m 0 c).arrAt_eq_of_cover 4 (outA (argQ m c) (argK m c)) (fun t _ => flushed4_eq m c t) cover4

/-- The two reshaped results are no array of the pipeline: they bypass the region. -/
theorem v1_rest : main_v1 ∈ Pipeline.restRefs sig (cfgs 0).spec :=
  Pipeline.mem_restRefs_of main_v1 rfl (by decide)
theorem v2_rest : main_v2 ∈ Pipeline.restRefs sig (cfgs 0).spec :=
  Pipeline.mem_restRefs_of main_v2 rfl (by decide)

/-- The first result of the program: the reshape of the first result array. -/
theorem tail_v1 (c : Dev nD) :
    Pipeline.afterTail₀ cfgs (dats m) 0 (V0 m) [hostOps1] c main_v1
      = shapeCast S4x4096x2048 (outX (argQ m c) (argK m c) (argV m c)) shapeCasts_S4x64x64x2048_S4x4096x2048 := by
  unfold Pipeline.afterTail₀
  show StableHlo.after hostOps1 _ (Proc.devRef .tc main_v1) = _
  after_results
  exact congrArg (fun A => shapeCast S4x4096x2048 A shapeCasts_S4x64x64x2048_S4x4096x2048)
    ((Pipeline.withArrays_arr spec0 launch0.win.arr_inj c _ _ 3).trans (final3 m c))

/-- The second result of the program: the reshape of the second result array. -/
theorem tail_v2 (c : Dev nD) :
    Pipeline.afterTail₀ cfgs (dats m) 0 (V0 m) [hostOps1] c main_v2
      = shapeCast S4x1x64x64x2048 (outA (argQ m c) (argK m c)) shapeCasts_S4x64x64x2048_S4x1x64x64x2048 := by
  unfold Pipeline.afterTail₀
  show StableHlo.after hostOps1 _ (Proc.devRef .tc main_v2) = _
  after_results
  exact congrArg (fun A => shapeCast S4x1x64x64x2048 A shapeCasts_S4x64x64x2048_S4x1x64x64x2048)
    ((Pipeline.withArrays_arr spec0 launch0.win.arr_inj c _ _ 4).trans (final4 m c))

/-- The kernel program's run: both results at the reshaped specification arrays, the arguments unchanged. -/
theorem kernel_run : θ_run Cert.KernelIdeal.defs (onTc (τ := τ) (Cert.KernelIdeal.main (F := Ideal))) ⟨m, fun _ => 0, ρ⟩ (fun r => ∀ c : Dev nD,
      r.2.mem ((c.tc : Thread nD τ).loc main_v1) = shapeCast S4x4096x2048 (outX (argQ m c) (argK m c) (argV m c)) shapeCasts_S4x64x64x2048_S4x4096x2048
      ∧ r.2.mem ((c.tc : Thread nD τ).loc main_v2) = shapeCast S4x1x64x64x2048 (outA (argQ m c) (argK m c)) shapeCasts_S4x64x64x2048_S4x1x64x64x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v1 v1_rest).trans (tail_v1 m c),
      ((h c).2 main_v2 v2_rest).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Attn.Run

end
-- ==== Proof.Claims.lean ====
/-
  The certificate's five claims, assembled.

  Both programs, read on the extended reals, compute one function of the three argument arrays Q, K, V
  (batch × group × hidden × time): per batch entry and time step, a 4-head softmax attention over the group
  axis. The first result is the attended values, the second the softmax averaged over the heads; each
  program then only relays them out ([4, 64·64, 2048] and [4, 1, 64, 64, 2048]). The kernel's run and the
  reference's run are each shown elsewhere to end at that function of their own arguments; here the two are
  put side by side, and the three frame claims are read off the runs.
-/
import proofs.«121823_j31353261260858_2_alg».proof.Defs
import proofs.«121823_j31353261260858_2_alg».proof.Proof.Gen.Kernel.Frame
import proofs.«121823_j31353261260858_2_alg».proof.Proof.Gen.KernelIdeal.Frame
import proofs.«121823_j31353261260858_2_alg».proof.Proof.Gen.ReferenceIdeal.Run
import proofs.«121823_j31353261260858_2_alg».proof.Proof.Gen.Pre_finite_inputs
import proofs.«121823_j31353261260858_2_alg».proof.Proof.RefSide
import proofs.«121823_j31353261260858_2_alg».proof.Proof.KernelRun

noncomputable section

namespace Cert.Proof.Claims

open Idealize.ShloMosaic Idealize.SL.Sem

/-! ## The three frames -/

theorem frame_k : Cert.frame_Kernel := fun m ρ _ => Cert.Kernel.Gen.frame m ρ

theorem frame_ki : Cert.frame_KernelIdeal := fun m ρ _ => Cert.KernelIdeal.Gen.frame m ρ

/-- The reference's run ends with its two results at their terms and its three arguments unchanged: keep the
    arguments. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealized kernel is the kernel's own text read on the extended reals: nothing was rewritten. -/
theorem preserves : Cert.preserves_Kernel_KernelIdeal := trivial

/-! ## The two programs compute one function -/

/-- On the extended reals both programs end, on every device, with the first result at the attended values
    `outX Q K V` laid out as [4, 4096, 2048] and the second at the head-averaged softmax `outA Q K` laid out as
    [4, 1, 64, 64, 2048], where Q, K, V are the kernel program's argument arrays as launched. The kernel's run
    says so directly; the reference's run ends at its own operations' term of ITS arguments, which is that same
    function of them index by index, and its arguments are the kernel's by hypothesis — so the two pairs of
    results are equal. -/
theorem algebraic : Cert.algebraic_KernelIdeal_ReferenceIdeal := by
  intro m ρ m' ρ' _ hagree
  refine ⟨fun c => shapeCast Cert.KernelIdeal.S4x4096x2048
            (Cert.Attn.outX (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
            Cert.KernelIdeal.Gen.shapeCasts_S4x64x64x2048_S4x4096x2048,
          fun c => shapeCast Cert.KernelIdeal.S4x1x64x64x2048
            (Cert.Attn.outA (m ((c.tc : Thread Cert.KernelIdeal.nD Cert.KernelIdeal.τ).loc Cert.KernelIdeal.main_arg0))
              (m ((c.tc : Thread Cert.KernelIdeal.nD Cert.KernelIdeal.τ).loc Cert.KernelIdeal.main_arg1)))
            Cert.KernelIdeal.Gen.shapeCasts_S4x64x64x2048_S4x1x64x64x2048,
          Cert.Attn.Run.kernel_run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v26_eq (F := Ideal) _ _ _).trans ?_
    rw [(hagree c).1, (hagree c).2.1, (hagree c).2.2]
    exact Cert.Attn.Ref.res1 _ _ _ _
  · refine (Cert.ReferenceIdeal.Read.val_main_v27_eq (F := Ideal) _ _).trans ?_
    rw [(hagree c).1, (hagree c).2.1]
    exact Cert.Attn.Ref.res2 _ _ _

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

end
-- ==== Proof.lean ====
/-
  The claim: a Pallas kernel for 4-head softmax attention over the group axis, against its jnp reference.

  Inputs q, k, v : [4, 64, 64, 2048] = batch × group × hidden × time. For each batch entry and time step the hidden
  axis is cut into 4 heads of 16 columns; per head, logits(gq, gk) = ¼ · ∑_d q[gq, 16h+d] · k[gk, 16h+d], a softmax over
  gk, and x[g, 16h+d] = ∑_gk attn_h(g, gk) · v[gk, 16h+d]; the second result is the attention averaged over the heads.
  (Spec.lean states this once.)

  * The reference computes it head by head with two batched contractions over 16 and 64 terms (RefSide.lean reads its
    run index by index).
  * The kernel walks a 4 × 16 grid of blocks [1, 64, 64, 128] and, per half block of 64 time steps, packs the four heads
    into ONE contraction: a key operand and a value operand that are block-diagonal, one band per head, zeros elsewhere
    (KernelLayout.lean). On the extended reals 0 · x = 0 and a finite sum ignores zero terms, so the contraction over all
    64 hidden columns is the contraction over head h's 16 columns, and the contraction over all 256 packed keys is the one
    over band c / 16 (SoftCore.lean); the maximum, the exponentials, the sums and the quotients are the same operations on
    both sides. Each output block is therefore one function of the block index (BlockValue.lean), the blocks tile the
    arrays (KernelRun.lean), and the two final reshapes are the same reshapes of the same arrays.
  * Both runs end at these two functions of the arguments, which agree by hypothesis (Claims.lean). No law used needs
    finiteness, so the precondition is never opened; the kernel's idealization rewrote nothing, so `preserves` is `True`.
-/
import proofs.«121823_j31353261260858_2_alg».proof.Defs
import proofs.«121823_j31353261260858_2_alg».proof.Proof.Gen.Kernel
import proofs.«121823_j31353261260858_2_alg».proof.Proof.Gen.Kernel.Skeleton
import proofs.«121823_j31353261260858_2_alg».proof.Proof.Gen.Kernel.Launch
import proofs.«121823_j31353261260858_2_alg».proof.Proof.Gen.Kernel.Points
import proofs.«121823_j31353261260858_2_alg».proof.Proof.Gen.Kernel.Frame
import proofs.«121823_j31353261260858_2_alg».proof.Proof.Gen.KernelIdeal
import proofs.«121823_j31353261260858_2_alg».proof.Proof.Gen.KernelIdeal.Skeleton
import proofs.«121823_j31353261260858_2_alg».proof.Proof.Gen.KernelIdeal.Launch
import proofs.«121823_j31353261260858_2_alg».proof.Proof.Gen.KernelIdeal.Points
import proofs.«121823_j31353261260858_2_alg».proof.Proof.Gen.KernelIdeal.Frame
import proofs.«121823_j31353261260858_2_alg».proof.Proof.Gen.ReferenceIdeal
import proofs.«121823_j31353261260858_2_alg».proof.Proof.Gen.Pre_finite_inputs
import proofs.«121823_j31353261260858_2_alg».proof.Proof.Gen.ReferenceIdeal.Run
import proofs.«121823_j31353261260858_2_alg».proof.Proof.Gen.ReferenceIdeal.Read
import proofs.«121823_j31353261260858_2_alg».proof.Proof.Claims
import Idealize.ShloMosaic.Adequacy
import Idealize.ShloMosaic.Init

noncomputable section

namespace Cert.Proof

/-- The five claims, under the programs' proved side conditions. -/
theorem claim : Cert.Claim := Cert.Proof.Claims.claim

end Cert.Proof

end
